-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩

class Facts : Prop where
  bcast_S_S32x128x56x56 : S_.BroadcastsInDim S32x128x56x56 (![] : Fin 0 → Fin S32x128x56x56.rank)
  reducesTo_S32x128x56x56_S_d0_1_2_3 : S32x128x56x56.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32x128x56x56 .f32) (main_arg1 : FVec F S256x128x3x3 .f32) (main_arg2 : FVec F S256 .f32) : IVec S_ 1 :=
  let main_v0 : FVec F S32x128x56x56 .f32 := Host.absf main_arg0
  let main_cst : FVec F S_ .f32 := constant S_ .f32 0x7F800000#32
  let main_v1 : FVec F S32x128x56x56 .f32 := broadcastInDim S32x128x56x56 ![] bcast_S_S32x128x56x56 main_cst
  let main_v2 : IVec S32x128x56x56 1 := cmpf .olt main_v0 main_v1
  let main_c : IVec S_ 1 := constantI S_ 1 1#1
  let main_v3 : IVec S_ 1 := (fun x v => Host.reduce IntOp.andi x v reducesTo_S32x128x56x56_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S3x3x128x256 : Shape := ⟨4, ![3, 3, 128, 256]⟩
abbrev S3x384x256 : Shape := ⟨3, ![3, 384, 256]⟩
abbrev S32x256x3136 : Shape := ⟨3, ![32, 256, 3136]⟩
abbrev S2x56x56x128 : Shape := ⟨4, ![2, 56, 56, 128]⟩
abbrev S2x256x3136 : Shape := ⟨3, ![2, 256, 3136]⟩
abbrev S2x58x58x128 : Shape := ⟨4, ![2, 58, 58, 128]⟩
abbrev S6272x256 : Shape := ⟨2, ![6272, 256]⟩
abbrev S2x56x58x128 : Shape := ⟨4, ![2, 56, 58, 128]⟩
abbrev S2x56x56x384 : Shape := ⟨4, ![2, 56, 56, 384]⟩
abbrev S6272x384 : Shape := ⟨2, ![6272, 384]⟩
abbrev S1x384x256 : Shape := ⟨3, ![1, 384, 256]⟩
abbrev S384x256 : Shape := ⟨2, ![384, 256]⟩
abbrev S2x3136x256 : Shape := ⟨3, ![2, 3136, 256]⟩
abbrev S1x256x1 : Shape := ⟨3, ![1, 256, 1]⟩
abbrev S32x256x56x56 : Shape := ⟨4, ![32, 256, 56, 56]⟩

abbrev nBuf : Space → Nat
  | .hbm => 10
  | .vmem => 8
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S32x56x56x128, .f32⟩
  | .hbm, ⟨4, _⟩ => ⟨S32x56x56x128, .bf16⟩
  | .hbm, ⟨5, _⟩ => ⟨S3x3x128x256, .f32⟩
  | .hbm, ⟨6, _⟩ => ⟨S3x3x128x256, .bf16⟩
  | .hbm, ⟨7, _⟩ => ⟨S3x384x256, .bf16⟩
  | .hbm, ⟨8, _⟩ => ⟨S32x256x3136, .f32⟩
  | .hbm, ⟨9, _⟩ => ⟨S32x256x56x56, .f32⟩
  | .local _ .vmem, ⟨0, _⟩ => ⟨S2x56x56x128, .bf16⟩
  | .local _ .vmem, ⟨1, _⟩ => ⟨S2x56x56x128, .bf16⟩
  | .local _ .vmem, ⟨2, _⟩ => ⟨S3x384x256, .bf16⟩
  | .local _ .vmem, ⟨3, _⟩ => ⟨S256, .f32⟩
  | .local _ .vmem, ⟨4, _⟩ => ⟨S2x256x3136, .f32⟩
  | .local _ .vmem, ⟨5, _⟩ => ⟨S2x256x3136, .f32⟩
  | .local _ .vmem, ⟨6, _⟩ => ⟨S2x58x58x128, .bf16⟩
  | .local _ .vmem, ⟨7, _⟩ => ⟨S6272x256, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x56x56x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x128x56x56_S32x56x56x128_0_2_3_1 : S32x128x56x56.Transposes [0, 2, 3, 1] S32x56x56x128
  bitsLt_bf16_f32 : FTy.bits .bf16 < FTy.bits .f32
  transposes_S256x128x3x3_S3x3x128x256_2_3_1_0 : S256x128x3x3.Transposes [2, 3, 1, 0] S3x3x128x256
  shapeCasts_S3x3x128x256_S3x384x256 : S3x3x128x256.ShapeCasts S3x384x256
  inb_S2x58x58x128_S2x58x58x128_0_0_0_0 : ∀ a, (![0, 0, 0, 0] : Fin 4 → Nat) a + S2x58x58x128.size a ≤ S2x58x58x128.size a
  h_S2x58x58x128 : 0 < S2x58x58x128.numel
  shapeCasts_S2x58x58x128_S2x58x58x128 : S2x58x58x128.ShapeCasts S2x58x58x128
  packedbf16_S2x58x58x128_S2x58x58x128_0_0_0_0 : (Rect.unit (s := S2x58x58x128) ![0, 0, 0, 0] S2x58x58x128.size inb_S2x58x58x128_S2x58x58x128_0_0_0_0).PackedRows (EltTy.packing .bf16)
  inb_S2x56x56x128_S2x56x56x128_0_0_0_0 : ∀ a, (![0, 0, 0, 0] : Fin 4 → Nat) a + S2x56x56x128.size a ≤ S2x56x56x128.size a
  h_S2x56x56x128 : 0 < S2x56x56x128.numel
  shapeCasts_S2x56x56x128_S2x56x56x128 : S2x56x56x128.ShapeCasts S2x56x56x128
  inb_S2x58x58x128_S2x56x56x128_0_1_1_0 : ∀ a, (![0, 1, 1, 0] : Fin 4 → Nat) a + S2x56x56x128.size a ≤ S2x58x58x128.size a
  inb_S2x58x58x128_S2x56x58x128_0_1_0_0 : ∀ a, (![0, 1, 0, 0] : Fin 4 → Nat) a + S2x56x58x128.size a ≤ S2x58x58x128.size a
  h_S2x56x58x128 : 0 < S2x56x58x128.numel
  slices_S2x56x58x128_S2x56x56x128_0_0_1_0 : S2x56x58x128.Slices ![0, 0, 1, 0] S2x56x56x128
  packedbf16_S2x58x58x128_S2x56x58x128_0_1_0_0 : (Rect.unit (s := S2x58x58x128) ![0, 1, 0, 0] S2x56x58x128.size inb_S2x58x58x128_S2x56x58x128_0_1_0_0).PackedRows (EltTy.packing .bf16)
  inb_S6272x256_S6272x256_0_0 : ∀ a, (![0, 0] : Fin 2 → Nat) a + S6272x256.size a ≤ S6272x256.size a
  h_S6272x256 : 0 < S6272x256.numel
  shapeCasts_S6272x256_S6272x256 : S6272x256.ShapeCasts S6272x256
  inb_S2x58x58x128_S2x56x56x128_0_0_0_0 : ∀ a, (![0, 0, 0, 0] : Fin 4 → Nat) a + S2x56x56x128.size a ≤ S2x58x58x128.size a
  inb_S2x58x58x128_S2x56x56x128_0_0_1_0 : ∀ a, (![0, 0, 1, 0] : Fin 4 → Nat) a + S2x56x56x128.size a ≤ S2x58x58x128.size a
  inb_S2x58x58x128_S2x56x56x128_0_0_2_0 : ∀ a, (![0, 0, 2, 0] : Fin 4 → Nat) a + S2x56x56x128.size a ≤ S2x58x58x128.size a
  concatenates_S2x56x56x128_S2x56x56x128_S2x56x56x128_S2x56x56x384_d3 : Shape.Concatenates [S2x56x56x128, S2x56x56x128, S2x56x56x128] S2x56x56x384 3
  shapeCasts_S2x56x56x384_S6272x384 : S2x56x56x384.ShapeCasts S6272x384
  inb_S3x384x256_S1x384x256_0_0_0 : ∀ a, (![0, 0, 0] : Fin 3 → Nat) a + S1x384x256.size a ≤ S3x384x256.size a
  h_S1x384x256 : 0 < S1x384x256.numel
  shapeCasts_S1x384x256_S384x256 : S1x384x256.ShapeCasts S384x256
  inb_S2x58x58x128_S2x56x56x128_0_1_0_0 : ∀ a, (![0, 1, 0, 0] : Fin 4 → Nat) a + S2x56x56x128.size a ≤ S2x58x58x128.size a
  inb_S2x58x58x128_S2x56x56x128_0_1_2_0 : ∀ a, (![0, 1, 2, 0] : Fin 4 → Nat) a + S2x56x56x128.size a ≤ S2x58x58x128.size a
  inb_S3x384x256_S1x384x256_1_0_0 : ∀ a, (![1, 0, 0] : Fin 3 → Nat) a + S1x384x256.size a ≤ S3x384x256.size a
  inb_S2x58x58x128_S2x56x56x128_0_2_0_0 : ∀ a, (![0, 2, 0, 0] : Fin 4 → Nat) a + S2x56x56x128.size a ≤ S2x58x58x128.size a
  inb_S2x58x58x128_S2x56x56x128_0_2_1_0 : ∀ a, (![0, 2, 1, 0] : Fin 4 → Nat) a + S2x56x56x128.size a ≤ S2x58x58x128.size a
  inb_S2x58x58x128_S2x56x56x128_0_2_2_0 : ∀ a, (![0, 2, 2, 0] : Fin 4 → Nat) a + S2x56x56x128.size a ≤ S2x58x58x128.size a
  inb_S3x384x256_S1x384x256_2_0_0 : ∀ a, (![2, 0, 0] : Fin 3 → Nat) a + S1x384x256.size a ≤ S3x384x256.size a
  shapeCasts_S6272x256_S2x3136x256 : S6272x256.ShapeCasts S2x3136x256
  transposes_S2x3136x256_p0_2_1_S2x256x3136 : S2x3136x256.Transposes [0, 2, 1] S2x256x3136
  inb_S256_S256_0 : ∀ a, (![0] : Fin 1 → Nat) a + S256.size a ≤ S256.size a
  h_S256 : 0 < S256.numel
  shapeCasts_S256_S1x256x1 : S256.ShapeCasts S1x256x1
  broadcasts_S1x256x1_S2x256x3136 : S1x256x1.Broadcasts S2x256x3136
  inb_S2x256x3136_S2x256x3136_0_0_0 : ∀ a, (![0, 0, 0] : Fin 3 → Nat) a + S2x256x3136.size a ≤ S2x256x3136.size a
  h_S2x256x3136 : 0 < S2x256x3136.numel
  shapeCasts_S32x256x3136_S32x256x56x56 : S32x256x3136.ShapeCasts S32x256x56x56
  dot_S6272x384_S384x256_S6272x256_1_0_0_1_n_n_wf : DotDims.WF S6272x384 S384x256 S6272x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x56x56x128.size a ≤ S32x56x56x128.size a
  hwx0_0 : ∀ i : grid0.Coords, EltTy.bits .bf16 = 32 ∨ (Rect.block (s := S32x56x56x128) S2x56x56x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x384x256.size a ≤ S3x384x256.size a
  hwx0_1 : ∀ i : grid0.Coords, EltTy.bits .bf16 = 32 ∨ (Rect.block (s := S3x384x256) S3x384x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x3136.size a ≤ S32x256x3136.size a
  hwx0_3 : ∀ i : grid0.Coords, EltTy.bits .f32 = 32 ∨ (Rect.block (s := S32x256x3136) S2x256x3136.size (cc0_transform_3 i) (hinb0_3 i)).WholeWords (EltTy.packing .f32)

variable [Facts₀]

def dot_S6272x384_S384x256_S6272x256_1_0_0_1_n_n : DotDims S6272x384 S384x256 S6272x256 where
  lhsContracting := [1]
  rhsContracting := [0]
  lhsNonContracting := [0]
  rhsNonContracting := [1]
  lhsBatch := []
  rhsBatch := []
  wf := dot_S6272x384_S384x256_S6272x256_1_0_0_1_n_n_wf

abbrev win0_0 : Pipeline.Window sig grid0 :=
  Pipeline.Window.ofSpec (Memref.whole main_v1) S2x56x56x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩
abbrev S32x128x58x58 : Shape := ⟨4, ![32, 128, 58, 58]⟩
abbrev S32x128x1x56x56 : Shape := ⟨5, ![32, 128, 1, 56, 56]⟩
abbrev S32x128x9x56x56 : Shape := ⟨5, ![32, 128, 9, 56, 56]⟩
abbrev S32x1152x3136 : Shape := ⟨3, ![32, 1152, 3136]⟩
abbrev S32x3136x1152 : Shape := ⟨3, ![32, 3136, 1152]⟩
abbrev S256x1152 : Shape := ⟨2, ![256, 1152]⟩
abbrev S256x32x3136 : Shape := ⟨3, ![256, 32, 3136]⟩
abbrev S32x256x3136 : Shape := ⟨3, ![32, 256, 3136]⟩
abbrev S32x256x56x56 : Shape := ⟨4, ![32, 256, 56, 56]⟩
abbrev S1x256x1x1 : Shape := ⟨4, ![1, 256, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S32x128x58x58, .f32⟩
  | .hbm, ⟨6, _⟩ => ⟨S32x128x56x56, .f32⟩
  | .hbm, ⟨7, _⟩ => ⟨S32x128x56x56, .f32⟩
  | .hbm, ⟨8, _⟩ => ⟨S32x128x56x56, .f32⟩
  | .hbm, ⟨9, _⟩ => ⟨S32x128x56x56, .f32⟩
  | .hbm, ⟨10, _⟩ => ⟨S32x128x56x56, .f32⟩
  | .hbm, ⟨11, _⟩ => ⟨S32x128x56x56, .f32⟩
  | .hbm, ⟨12, _⟩ => ⟨S32x128x56x56, .f32⟩
  | .hbm, ⟨13, _⟩ => ⟨S32x128x56x56, .f32⟩
  | .hbm, ⟨14, _⟩ => ⟨S32x128x56x56, .f32⟩
  | .hbm, ⟨15, _⟩ => ⟨S32x128x1x56x56, .f32⟩
  | .hbm, ⟨16, _⟩ => ⟨S32x128x1x56x56, .f32⟩
  | .hbm, ⟨17, _⟩ => ⟨S32x128x1x56x56, .f32⟩
  | .hbm, ⟨18, _⟩ => ⟨S32x128x1x56x56, .f32⟩
  | .hbm, ⟨19, _⟩ => ⟨S32x128x1x56x56, .f32⟩
  | .hbm, ⟨20, _⟩ => ⟨S32x128x1x56x56, .f32⟩
  | .hbm, ⟨21, _⟩ => ⟨S32x128x1x56x56, .f32⟩
  | .hbm, ⟨22, _⟩ => ⟨S32x128x1x56x56, .f32⟩
  | .hbm, ⟨23, _⟩ => ⟨S32x128x1x56x56, .f32⟩
  | .hbm, ⟨24, _⟩ => ⟨S32x128x9x56x56, .f32⟩
  | .hbm, ⟨25, _⟩ => ⟨S32x1152x3136, .f32⟩
  | .hbm, ⟨26, _⟩ => ⟨S32x3136x1152, .f32⟩
  | .hbm, ⟨27, _⟩ => ⟨S256x1152, .f32⟩
  | .hbm, ⟨28, _⟩ => ⟨S256x32x3136, .f32⟩
  | .hbm, ⟨29, _⟩ => ⟨S32x256x3136, .f32⟩
  | .hbm, ⟨30, _⟩ => ⟨S32x256x56x56, .f32⟩
  | .hbm, ⟨31, _⟩ => ⟨S1x256x1x1, .f32⟩
  | .hbm, ⟨32, _⟩ => ⟨S32x256x56x56, .f32⟩
  | .hbm, ⟨33, _⟩ => ⟨S32x256x56x56, .f32⟩
  | _, _ => ⟨S32x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]

class Facts₀ : Prop where
  pads_S32x128x56x56_S32x128x58x58_000_000_110_110 : S32x128x56x56.Pads (![0, 0, 1, 1] : Fin 4 → Nat) ![0, 0, 1, 1] ![0, 0, 0, 0] S32x128x58x58
  h_S_ : 0 < S_.numel
  slices_S32x128x58x58_S32x128x56x56_0_0_0_0 : S32x128x58x58.Slices ![0, 0, 0, 0] S32x128x56x56
  slices_S32x128x58x58_S32x128x56x56_0_0_0_1 : S32x128x58x58.Slices ![0, 0, 0, 1] S32x128x56x56
  slices_S32x128x58x58_S32x128x56x56_0_0_0_2 : S32x128x58x58.Slices ![0, 0, 0, 2] S32x128x56x56
  slices_S32x128x58x58_S32x128x56x56_0_0_1_0 : S32x128x58x58.Slices ![0, 0, 1, 0] S32x128x56x56
  slices_S32x128x58x58_S32x128x56x56_0_0_1_1 : S32x128x58x58.Slices ![0, 0, 1, 1] S32x128x56x56
  slices_S32x128x58x58_S32x128x56x56_0_0_1_2 : S32x128x58x58.Slices ![0, 0, 1, 2] S32x128x56x56
  slices_S32x128x58x58_S32x128x56x56_0_0_2_0 : S32x128x58x58.Slices ![0, 0, 2, 0] S32x128x56x56
  slices_S32x128x58x58_S32x128x56x56_0_0_2_1 : S32x128x58x58.Slices ![0, 0, 2, 1] S32x128x56x56
  slices_S32x128x58x58_S32x128x56x56_0_0_2_2 : S32x128x58x58.Slices ![0, 0, 2, 2] S32x128x56x56
  bcast_S32x128x56x56_S32x128x1x56x56_0_1_3_4 : S32x128x56x56.BroadcastsInDim S32x128x1x56x56 (![0, 1, 3, 4] : Fin 4 → Fin S32x128x1x56x56.rank)
  concatenates_S32x128x1x56x56_S32x128x1x56x56_S32x128x1x56x56_S32x128x1x56x56_S32x128x1x56x56_S32x128x1x56x56_S32x128x1x56x56_S32x128x1x56x56_S32x128x1x56x56_S32x128x9x56x56_d2 : Shape.Concatenates [S32x128x1x56x56, S32x128x1x56x56, S32x128x1x56x56, S32x128x1x56x56, S32x128x1x56x56, S32x128x1x56x56, S32x128x1x56x56, S32x128x1x56x56, S32x128x1x56x56] S32x128x9x56x56 2
  shapeCasts_S32x128x9x56x56_S32x1152x3136 : S32x128x9x56x56.ShapeCasts S32x1152x3136
  transposes_S32x1152x3136_S32x3136x1152_0_2_1 : S32x1152x3136.Transposes [0, 2, 1] S32x3136x1152
  shapeCasts_S256x128x3x3_S256x1152 : S256x128x3x3.ShapeCasts S256x1152
  transposes_S256x32x3136_S32x256x3136_1_0_2 : S256x32x3136.Transposes [1, 0, 2] S32x256x3136
  shapeCasts_S32x256x3136_S32x256x56x56 : S32x256x3136.ShapeCasts S32x256x56x56
  shapeCasts_S256_S1x256x1x1 : S256.ShapeCasts S1x256x1x1
  bcast_S1x256x1x1_S32x256x56x56_0_1_2_3 : S1x256x1x1.BroadcastsInDim S32x256x56x56 (![0, 1, 2, 3] : Fin 4 → Fin S32x256x56x56.rank)
  dot_S256x1152_S32x3136x1152_S256x32x3136_1_2_0_01_n_n_wf : DotDims.WF S256x1152 S32x3136x1152 S256x32x3136 [1] [2] [0] [0, 1] [] []

variable [Facts₀]

def dot_S256x1152_S32x3136x1152_S256x32x3136_1_2_0_01_n_n : DotDims S256x1152 S32x3136x1152 S256x32x3136 where
  lhsContracting := [1]
  rhsContracting := [2]
  lhsNonContracting := [0]
  rhsNonContracting := [0, 1]
  lhsBatch := []
  rhsBatch := []
  wf := dot_S256x1152_S32x3136x1152_S256x32x3136_1_2_0_01_n_n_wf

class Facts : Prop extends Facts₀ where

variable [Facts]
-- ==== Proof.KBody.lean ====
import proofs.«166849_j29085518529124_2_alg».proof.Proof.Gen.Kernel.Launch
import proofs.«166849_j29085518529124_2_alg».proof.Proof.Gen.Kernel.Skeleton
import proofs.«166849_j29085518529124_2_alg».proof.Proof.Gen.Kernel.Points
import proofs.«166849_j29085518529124_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-!
  The kernel body at one grid point, as a pure function of the three input blocks.

  A point receives a block of two images in channels-last layout [2, 56, 56, 128], the whole filter bank laid
  out as three [384, 256] matrices (one per tap row; the 384 rows run over tap column then channel) and the bias.
  The body (1) fills a [2, 58, 58, 128] scratch with zeros and writes the block into its interior, which leaves the
  block surrounded by a ring of zeros; (2) zeroes a [6272, 256] accumulator, one row per pixel of the two images;
  (3) for each tap row gathers the three column-shifted [2, 56, 56, 128] windows of the padded scratch side by side
  into a [6272, 384] matrix, multiplies it with that tap row's [384, 256] matrix and adds the product to the
  accumulator; (4) transposes the accumulator's two [3136, 256] halves to [256, 3136], adds the bias along the
  channel axis and stores the result as the point's output block.  Every scratch value the body reads it has
  written before at that same point, so what it leaves in the output block is a function of the input blocks alone
  (`outBlock`), whatever the scratch buffers held on entry.
-/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

abbrev rPad : Rect S2x58x58x128 := Rect.unit (s := S2x58x58x128) ![0, 0, 0, 0] S2x58x58x128.size inb_S2x58x58x128_S2x58x58x128_0_0_0_0
abbrev rRows : Rect S2x58x58x128 := Rect.unit (s := S2x58x58x128) ![0, 1, 0, 0] S2x56x58x128.size inb_S2x58x58x128_S2x56x58x128_0_1_0_0
abbrev rIn : Rect S2x56x56x128 := Rect.unit (s := S2x56x56x128) ![0, 0, 0, 0] S2x56x56x128.size inb_S2x56x56x128_S2x56x56x128_0_0_0_0
abbrev rT00 : Rect S2x58x58x128 := Rect.unit (s := S2x58x58x128) ![0, 0, 0, 0] S2x56x56x128.size inb_S2x58x58x128_S2x56x56x128_0_0_0_0
abbrev rT01 : Rect S2x58x58x128 := Rect.unit (s := S2x58x58x128) ![0, 0, 1, 0] S2x56x56x128.size inb_S2x58x58x128_S2x56x56x128_0_0_1_0
abbrev rT02 : Rect S2x58x58x128 := Rect.unit (s := S2x58x58x128) ![0, 0, 2, 0] S2x56x56x128.size inb_S2x58x58x128_S2x56x56x128_0_0_2_0
abbrev rT10 : Rect S2x58x58x128 := Rect.unit (s := S2x58x58x128) ![0, 1, 0, 0] S2x56x56x128.size inb_S2x58x58x128_S2x56x56x128_0_1_0_0
abbrev rT11 : Rect S2x58x58x128 := Rect.unit (s := S2x58x58x128) ![0, 1, 1, 0] S2x56x56x128.size inb_S2x58x58x128_S2x56x56x128_0_1_1_0
abbrev rT12 : Rect S2x58x58x128 := Rect.unit (s := S2x58x58x128) ![0, 1, 2, 0] S2x56x56x128.size inb_S2x58x58x128_S2x56x56x128_0_1_2_0
abbrev rT20 : Rect S2x58x58x128 := Rect.unit (s := S2x58x58x128) ![0, 2, 0, 0] S2x56x56x128.size inb_S2x58x58x128_S2x56x56x128_0_2_0_0
abbrev rT21 : Rect S2x58x58x128 := Rect.unit (s := S2x58x58x128) ![0, 2, 1, 0] S2x56x56x128.size inb_S2x58x58x128_S2x56x56x128_0_2_1_0
abbrev rT22 : Rect S2x58x58x128 := Rect.unit (s := S2x58x58x128) ![0, 2, 2, 0] S2x56x56x128.size inb_S2x58x58x128_S2x56x56x128_0_2_2_0
abbrev rW0 : Rect S3x384x256 := Rect.unit (s := S3x384x256) ![0, 0, 0] S1x384x256.size inb_S3x384x256_S1x384x256_0_0_0
abbrev rW1 : Rect S3x384x256 := Rect.unit (s := S3x384x256) ![1, 0, 0] S1x384x256.size inb_S3x384x256_S1x384x256_1_0_0
abbrev rW2 : Rect S3x384x256 := Rect.unit (s := S3x384x256) ![2, 0, 0] S1x384x256.size inb_S3x384x256_S1x384x256_2_0_0
abbrev rAcc : Rect S6272x256 := Rect.unit (s := S6272x256) ![0, 0] S6272x256.size inb_S6272x256_S6272x256_0_0
abbrev rBias : Rect S256 := Rect.unit (s := S256) ![0] S256.size inb_S256_S256_0
abbrev rOut : Rect S2x256x3136 := Rect.unit (s := S2x256x3136) ![0, 0, 0] S2x256x3136.size inb_S2x256x3136_S2x256x3136_0_0_0

/-! ## What the body leaves, as pure terms over the input blocks -/

/-- The writes into the padded scratch, last first: the zero fill, then the rows 1 … 56 rewritten with the input
    block in columns 1 … 56 and the columns 0 and 57 as the zero fill left them. -/
def padWrites (x1 : Vec F S2x56x56x128 .bf16) : List (View.Piece (Elt F) S2x58x58x128 .bf16) :=
  [⟨rRows, updateSlice (View.ld (View.canon [⟨rPad, k0_pay3 (F := F)⟩]) rRows) (k0_pay4 (View.ld x1 rIn)) ![0, 0, 1, 0]
      slices_S2x56x58x128_S2x56x56x128_0_0_1_0⟩,
   ⟨rPad, k0_pay3 (F := F)⟩]

/-- The padded scratch after them. -/
def padded (x1 : Vec F S2x56x56x128 .bf16) : Vec F S2x58x58x128 .bf16 := View.canon (padWrites x1)

/-- The accumulator's writes after the first tap row, -/
def accWrites1 (x1 : Vec F S2x56x56x128 .bf16) (x2 : Vec F S3x384x256 .bf16) : List (View.Piece (Elt F) S6272x256 .f32) :=
  [⟨rAcc, k0_pay7 (View.ld (View.canon [⟨rAcc, k0_pay5 (F := F)⟩]) rAcc)
      (k0_pay6 (View.ld (padded x1) rT00) (View.ld (padded x1) rT01) (View.ld (padded x1) rT02) (View.ld x2 rW0))⟩,
   ⟨rAcc, k0_pay5 (F := F)⟩]

/-- after the second, -/
def accWrites2 (x1 : Vec F S2x56x56x128 .bf16) (x2 : Vec F S3x384x256 .bf16) : List (View.Piece (Elt F) S6272x256 .f32) :=
  ⟨rAcc, k0_pay8 (View.ld (padded x1) rT10) (View.ld (padded x1) rT11) (View.ld (padded x1) rT12) (View.ld x2 rW1)
      (View.ld (View.canon (accWrites1 x1 x2)) rAcc)⟩ :: accWrites1 x1 x2

/-- and after the third. -/
def accWrites3 (x1 : Vec F S2x56x56x128 .bf16) (x2 : Vec F S3x384x256 .bf16) : List (View.Piece (Elt F) S6272x256 .f32) :=
  ⟨rAcc, k0_pay1 (k0_pay9 (View.ld (padded x1) rT20) (View.ld (padded x1) rT21) (View.ld (padded x1) rT22)) (View.ld x2 rW2)
      (View.ld (View.canon (accWrites2 x1 x2)) rAcc)⟩ :: accWrites2 x1 x2

/-- The output block the body leaves: the accumulator transposed plus the bias. -/
def outBlock (x1 : Vec F S2x56x56x128 .bf16) (x2 : Vec F S3x384x256 .bf16) (x3 : Vec F S256 .f32) : Vec F S2x256x3136 .f32 :=
  View.canon [⟨rOut, k0_pay2 (View.ld (View.canon (accWrites3 x1 x2)) rAcc) (View.ld x3 rBias)⟩]

/-- The one store into the output block covers it. -/
theorem cover_out (p0 : Vec F S2x256x3136 .f32) (y : S2x256x3136.Idx) :
    ∃ pc ∈ ([⟨rOut, p0⟩] : List (View.Piece (Elt F) S2x256x3136 .f32)), y ∈ pc.1.set :=
  View.cover_of_tiled [⟨rOut, p0⟩] S2x256x3136.size (by rfl) y

/-! ## The body's triple -/

set_option maxHeartbeats 4000000 in
/-- The body on whole buffers — the three inputs at read contents `x1`, `x2`, `x3`, the output block and the two
    scratch buffers at anything — runs to the continuation with the inputs as they were, the output block at
    `outBlock x1 x2 x3` and the scratch buffers at something. -/
theorem sound_kernel (c : Dev nD) (E : Set ℕ) (i : grid0.Coords)
    (arg1 : Memref sig .tc .vmem S2x56x56x128 .bf16) (harg1 : arg1.IsWhole)
    (arg2 : Memref sig .tc .vmem S3x384x256 .bf16) (harg2 : arg2.IsWhole)
    (arg3 : Memref sig .tc .vmem S256 .f32) (harg3 : arg3.IsWhole)
    (arg4 : Memref sig .tc .vmem S2x256x3136 .f32) (harg4 : arg4.IsWhole)
    (arg5 : Memref sig .tc .vmem S2x58x58x128 .bf16) (harg5 : arg5.IsWhole)
    (arg6 : Memref sig .tc .vmem S6272x256 .f32) (harg6 : arg6.IsWhole)
    (x1 : Vec F S2x56x56x128 .bf16) (x2 : Vec F S3x384x256 .bf16) (x3 : Vec F S256 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (outBlock x1 x2 x3)
            ∗ (∃ d, owns (c : Thread nD τ) arg5 fullShare d) ∗ (∃ d, owns (c : Thread nD τ) arg6 fullShare d)) -∗ K ⟨⟩))
      ⊢ wp frame (wpE (defs₀ (F := F)) Variants.none c none) E (cc0__conv_kernel i arg1 harg1 arg2 harg2 arg3 harg3 arg4 harg4 arg5 harg5 arg6 harg6) K := by
  simp only [cc0__conv_kernel_eq_skeleton]; unfold cc0__conv_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_out _)]
    unfold outBlock accWrites3 accWrites2 accWrites1 padded padWrites
    unfold sound_kernel.sl.v52 sound_kernel.sl.H6_4 sound_kernel.sl.v46 sound_kernel.sl.H6_3 sound_kernel.sl.v33 sound_kernel.sl.H6_2
      sound_kernel.sl.v20 sound_kernel.sl.H6_1 sound_kernel.sl.v13 sound_kernel.sl.v14 sound_kernel.sl.v15
      sound_kernel.sl.v26 sound_kernel.sl.v27 sound_kernel.sl.v28 sound_kernel.sl.v39 sound_kernel.sl.v40 sound_kernel.sl.v41
      sound_kernel.sl.H5_2 sound_kernel.sl.old sound_kernel.sl.H5_1
    simp only [View.readCov_eq_canon', View.readAt_eq_ld]
  isplitl [H5]
  · iexists _; iexists _; isplitr
    swap; · iexact H5
    ipureintro; rfl
  iexists _; iexists _; isplitr
  swap; · iexact H6
  ipureintro; rfl

/-! ## The proof data and the body obligation -/

variable (m : (ℓ : Loc nD τ sig) → Buf (Elt F) ℓ) (ρ : Dev nD → PrngReg)

/-- The region's invariant with the two scratch buffers as whole memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data of the one pipeline on core `c`: the arrays as the region finds them; after the body at point `t`
    each input's buffer at its block and the output's at `outBlock` of the three input blocks; the invariant the scratch
    buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the scratch buffers come out of the invariant and go
    back into it, the generator register and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA0_eq]
  iintro ⟨⟨⟨Hs5, Hs6⟩, Hr⟩, Ho, ⟨%d0, H0⟩, ⟨%d1, H1⟩, ⟨%d2, H2⟩, ⟨%d3, H3⟩⟩
  iapply (sound_kernel c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hs5]; · iexact Hs5
  isplitl [Hs6]; · iexact Hs6
  iintro ⟨H0, H1, H2, H3, Hs5, Hs6⟩
  isplitl [Hs5 Hs6 Hr]
  · isplitr [Hr]
    · isplitl [Hs5]; · iexact Hs5
      iexact Hs6
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every array of the pipeline at what the library computes from the proof data and every other unscoped buffer at
    what the host lines after the region leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KBodyIdeal.lean ====
import proofs.«166849_j29085518529124_2_alg».proof.Proof.Gen.KernelIdeal.Launch
import proofs.«166849_j29085518529124_2_alg».proof.Proof.Gen.KernelIdeal.Skeleton
import proofs.«166849_j29085518529124_2_alg».proof.Proof.Gen.KernelIdeal.Points
import proofs.«166849_j29085518529124_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-!
  The kernel body at one grid point, as a pure function of the three input blocks.

  A point receives a block of two images in channels-last layout [2, 56, 56, 128], the whole filter bank laid
  out as three [384, 256] matrices (one per tap row; the 384 rows run over tap column then channel) and the bias.
  The body (1) fills a [2, 58, 58, 128] scratch with zeros and writes the block into its interior, which leaves the
  block surrounded by a ring of zeros; (2) zeroes a [6272, 256] accumulator, one row per pixel of the two images;
  (3) for each tap row gathers the three column-shifted [2, 56, 56, 128] windows of the padded scratch side by side
  into a [6272, 384] matrix, multiplies it with that tap row's [384, 256] matrix and adds the product to the
  accumulator; (4) transposes the accumulator's two [3136, 256] halves to [256, 3136], adds the bias along the
  channel axis and stores the result as the point's output block.  Every scratch value the body reads it has
  written before at that same point, so what it leaves in the output block is a function of the input blocks alone
  (`outBlock`), whatever the scratch buffers held on entry.
-/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

abbrev rPad : Rect S2x58x58x128 := Rect.unit (s := S2x58x58x128) ![0, 0, 0, 0] S2x58x58x128.size inb_S2x58x58x128_S2x58x58x128_0_0_0_0
abbrev rRows : Rect S2x58x58x128 := Rect.unit (s := S2x58x58x128) ![0, 1, 0, 0] S2x56x58x128.size inb_S2x58x58x128_S2x56x58x128_0_1_0_0
abbrev rIn : Rect S2x56x56x128 := Rect.unit (s := S2x56x56x128) ![0, 0, 0, 0] S2x56x56x128.size inb_S2x56x56x128_S2x56x56x128_0_0_0_0
abbrev rT00 : Rect S2x58x58x128 := Rect.unit (s := S2x58x58x128) ![0, 0, 0, 0] S2x56x56x128.size inb_S2x58x58x128_S2x56x56x128_0_0_0_0
abbrev rT01 : Rect S2x58x58x128 := Rect.unit (s := S2x58x58x128) ![0, 0, 1, 0] S2x56x56x128.size inb_S2x58x58x128_S2x56x56x128_0_0_1_0
abbrev rT02 : Rect S2x58x58x128 := Rect.unit (s := S2x58x58x128) ![0, 0, 2, 0] S2x56x56x128.size inb_S2x58x58x128_S2x56x56x128_0_0_2_0
abbrev rT10 : Rect S2x58x58x128 := Rect.unit (s := S2x58x58x128) ![0, 1, 0, 0] S2x56x56x128.size inb_S2x58x58x128_S2x56x56x128_0_1_0_0
abbrev rT11 : Rect S2x58x58x128 := Rect.unit (s := S2x58x58x128) ![0, 1, 1, 0] S2x56x56x128.size inb_S2x58x58x128_S2x56x56x128_0_1_1_0
abbrev rT12 : Rect S2x58x58x128 := Rect.unit (s := S2x58x58x128) ![0, 1, 2, 0] S2x56x56x128.size inb_S2x58x58x128_S2x56x56x128_0_1_2_0
abbrev rT20 : Rect S2x58x58x128 := Rect.unit (s := S2x58x58x128) ![0, 2, 0, 0] S2x56x56x128.size inb_S2x58x58x128_S2x56x56x128_0_2_0_0
abbrev rT21 : Rect S2x58x58x128 := Rect.unit (s := S2x58x58x128) ![0, 2, 1, 0] S2x56x56x128.size inb_S2x58x58x128_S2x56x56x128_0_2_1_0
abbrev rT22 : Rect S2x58x58x128 := Rect.unit (s := S2x58x58x128) ![0, 2, 2, 0] S2x56x56x128.size inb_S2x58x58x128_S2x56x56x128_0_2_2_0
abbrev rW0 : Rect S3x384x256 := Rect.unit (s := S3x384x256) ![0, 0, 0] S1x384x256.size inb_S3x384x256_S1x384x256_0_0_0
abbrev rW1 : Rect S3x384x256 := Rect.unit (s := S3x384x256) ![1, 0, 0] S1x384x256.size inb_S3x384x256_S1x384x256_1_0_0
abbrev rW2 : Rect S3x384x256 := Rect.unit (s := S3x384x256) ![2, 0, 0] S1x384x256.size inb_S3x384x256_S1x384x256_2_0_0
abbrev rAcc : Rect S6272x256 := Rect.unit (s := S6272x256) ![0, 0] S6272x256.size inb_S6272x256_S6272x256_0_0
abbrev rBias : Rect S256 := Rect.unit (s := S256) ![0] S256.size inb_S256_S256_0
abbrev rOut : Rect S2x256x3136 := Rect.unit (s := S2x256x3136) ![0, 0, 0] S2x256x3136.size inb_S2x256x3136_S2x256x3136_0_0_0

/-! ## What the body leaves, as pure terms over the input blocks -/

/-- The writes into the padded scratch, last first: the zero fill, then the rows 1 … 56 rewritten with the input
    block in columns 1 … 56 and the columns 0 and 57 as the zero fill left them. -/
def padWrites (x1 : Vec F S2x56x56x128 .bf16) : List (View.Piece (Elt F) S2x58x58x128 .bf16) :=
  [⟨rRows, updateSlice (View.ld (View.canon [⟨rPad, k0_pay3 (F := F)⟩]) rRows) (k0_pay4 (View.ld x1 rIn)) ![0, 0, 1, 0]
      slices_S2x56x58x128_S2x56x56x128_0_0_1_0⟩,
   ⟨rPad, k0_pay3 (F := F)⟩]

/-- The padded scratch after them. -/
def padded (x1 : Vec F S2x56x56x128 .bf16) : Vec F S2x58x58x128 .bf16 := View.canon (padWrites x1)

/-- The accumulator's writes after the first tap row, -/
def accWrites1 (x1 : Vec F S2x56x56x128 .bf16) (x2 : Vec F S3x384x256 .bf16) : List (View.Piece (Elt F) S6272x256 .f32) :=
  [⟨rAcc, k0_pay7 (View.ld (View.canon [⟨rAcc, k0_pay5 (F := F)⟩]) rAcc)
      (k0_pay6 (View.ld (padded x1) rT00) (View.ld (padded x1) rT01) (View.ld (padded x1) rT02) (View.ld x2 rW0))⟩,
   ⟨rAcc, k0_pay5 (F := F)⟩]

/-- after the second, -/
def accWrites2 (x1 : Vec F S2x56x56x128 .bf16) (x2 : Vec F S3x384x256 .bf16) : List (View.Piece (Elt F) S6272x256 .f32) :=
  ⟨rAcc, k0_pay8 (View.ld (padded x1) rT10) (View.ld (padded x1) rT11) (View.ld (padded x1) rT12) (View.ld x2 rW1)
      (View.ld (View.canon (accWrites1 x1 x2)) rAcc)⟩ :: accWrites1 x1 x2

/-- and after the third. -/
def accWrites3 (x1 : Vec F S2x56x56x128 .bf16) (x2 : Vec F S3x384x256 .bf16) : List (View.Piece (Elt F) S6272x256 .f32) :=
  ⟨rAcc, k0_pay1 (k0_pay9 (View.ld (padded x1) rT20) (View.ld (padded x1) rT21) (View.ld (padded x1) rT22)) (View.ld x2 rW2)
      (View.ld (View.canon (accWrites2 x1 x2)) rAcc)⟩ :: accWrites2 x1 x2

/-- The output block the body leaves: the accumulator transposed plus the bias. -/
def outBlock (x1 : Vec F S2x56x56x128 .bf16) (x2 : Vec F S3x384x256 .bf16) (x3 : Vec F S256 .f32) : Vec F S2x256x3136 .f32 :=
  View.canon [⟨rOut, k0_pay2 (View.ld (View.canon (accWrites3 x1 x2)) rAcc) (View.ld x3 rBias)⟩]

/-- The one store into the output block covers it. -/
theorem cover_out (p0 : Vec F S2x256x3136 .f32) (y : S2x256x3136.Idx) :
    ∃ pc ∈ ([⟨rOut, p0⟩] : List (View.Piece (Elt F) S2x256x3136 .f32)), y ∈ pc.1.set :=
  View.cover_of_tiled [⟨rOut, p0⟩] S2x256x3136.size (by rfl) y

/-! ## The body's triple -/

set_option maxHeartbeats 4000000 in
/-- The body on whole buffers — the three inputs at read contents `x1`, `x2`, `x3`, the output block and the two
    scratch buffers at anything — runs to the continuation with the inputs as they were, the output block at
    `outBlock x1 x2 x3` and the scratch buffers at something. -/
theorem sound_kernel (c : Dev nD) (E : Set ℕ) (i : grid0.Coords)
    (arg1 : Memref sig .tc .vmem S2x56x56x128 .bf16) (harg1 : arg1.IsWhole)
    (arg2 : Memref sig .tc .vmem S3x384x256 .bf16) (harg2 : arg2.IsWhole)
    (arg3 : Memref sig .tc .vmem S256 .f32) (harg3 : arg3.IsWhole)
    (arg4 : Memref sig .tc .vmem S2x256x3136 .f32) (harg4 : arg4.IsWhole)
    (arg5 : Memref sig .tc .vmem S2x58x58x128 .bf16) (harg5 : arg5.IsWhole)
    (arg6 : Memref sig .tc .vmem S6272x256 .f32) (harg6 : arg6.IsWhole)
    (x1 : Vec F S2x56x56x128 .bf16) (x2 : Vec F S3x384x256 .bf16) (x3 : Vec F S256 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (outBlock x1 x2 x3)
            ∗ (∃ d, owns (c : Thread nD τ) arg5 fullShare d) ∗ (∃ d, owns (c : Thread nD τ) arg6 fullShare d)) -∗ K ⟨⟩))
      ⊢ wp frame (wpE (defs₀ (F := F)) Variants.none c none) E (cc0__conv_kernel i arg1 harg1 arg2 harg2 arg3 harg3 arg4 harg4 arg5 harg5 arg6 harg6) K := by
  simp only [cc0__conv_kernel_eq_skeleton]; unfold cc0__conv_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_out _)]
    unfold outBlock accWrites3 accWrites2 accWrites1 padded padWrites
    unfold sound_kernel.sl.v52 sound_kernel.sl.H6_4 sound_kernel.sl.v46 sound_kernel.sl.H6_3 sound_kernel.sl.v33 sound_kernel.sl.H6_2
      sound_kernel.sl.v20 sound_kernel.sl.H6_1 sound_kernel.sl.v13 sound_kernel.sl.v14 sound_kernel.sl.v15
      sound_kernel.sl.v26 sound_kernel.sl.v27 sound_kernel.sl.v28 sound_kernel.sl.v39 sound_kernel.sl.v40 sound_kernel.sl.v41
      sound_kernel.sl.H5_2 sound_kernel.sl.old sound_kernel.sl.H5_1
    simp only [View.readCov_eq_canon', View.readAt_eq_ld]
  isplitl [H5]
  · iexists _; iexists _; isplitr
    swap; · iexact H5
    ipureintro; rfl
  iexists _; iexists _; isplitr
  swap; · iexact H6
  ipureintro; rfl

/-! ## The proof data and the body obligation -/

variable (m : (ℓ : Loc nD τ sig) → Buf (Elt F) ℓ) (ρ : Dev nD → PrngReg)

/-- The region's invariant with the two scratch buffers as whole memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data of the one pipeline on core `c`: the arrays as the region finds them; after the body at point `t`
    each input's buffer at its block and the output's at `outBlock` of the three input blocks; the invariant the scratch
    buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the scratch buffers come out of the invariant and go
    back into it, the generator register and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA0_eq]
  iintro ⟨⟨⟨Hs5, Hs6⟩, Hr⟩, Ho, ⟨%d0, H0⟩, ⟨%d1, H1⟩, ⟨%d2, H2⟩, ⟨%d3, H3⟩⟩
  iapply (sound_kernel c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hs5]; · iexact Hs5
  isplitl [Hs6]; · iexact Hs6
  iintro ⟨H0, H1, H2, H3, Hs5, Hs6⟩
  isplitl [Hs5 Hs6 Hr]
  · isplitr [Hr]
    · isplitl [Hs5]; · iexact Hs5
      iexact Hs6
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every array of the pipeline at what the library computes from the proof data and every other unscoped buffer at
    what the host lines after the region leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The convolution both programs compute, as one function of the three argument arrays on the extended reals.

  For an input `x` of shape [32, 128, 56, 56] (batch, channel, row, column), a filter bank `w` of shape
  [256, 128, 3, 3] (output channel, channel, tap row, tap column) and a bias `β` of length 256, the result at
  (b, o, h, v) is

      ( Σ_c Σ_p Σ_q  w(o, c, p, q) · x̄(b, c, h + p, v + q) )  +  β(o)

  where `x̄` is `x` surrounded by one ring of zeros: x̄(b, c, r, s) = x(b, c, r − 1, s − 1) when 1 ≤ r, s ≤ 56 and
  0 otherwise (stride 1, padding 1, no dilation).  Sums of extended reals are commutative and associative, and
  `0 · a = 0` for every extended real `a`, so no finiteness is needed to regroup the sum.
-/
import Mathlib
import Idealize.ShloMosaic.PureOps.Ideal
import Idealize.ShloMosaic.Lib.ValueIdx

noncomputable section

open scoped BigOperators

namespace Cert.ConvSpec

open Idealize.ShloMosaic Idealize.ShloMosaic.ValueIdx

/-- The input with a ring of zeros around each 56 × 56 plane, read at a row `r` and a column `s` of the padded
    58 × 58 plane. -/
def padAt (x : (⟨4, ![32, 128, 56, 56]⟩ : Shape).Idx → EReal) (b : Fin 32) (c : Fin 128) (r s : ℕ) : EReal :=
  if h : 1 ≤ r ∧ r ≤ 56 ∧ 1 ≤ s ∧ s ≤ 56 then x (ix4 b c ⟨r - 1, by omega⟩ ⟨s - 1, by omega⟩) else 0

/-- The 3 × 3 convolution with padding 1 and a bias, at an output index. -/
def conv (x : (⟨4, ![32, 128, 56, 56]⟩ : Shape).Idx → EReal) (w : (⟨4, ![256, 128, 3, 3]⟩ : Shape).Idx → EReal)
    (β : (⟨1, ![256]⟩ : Shape).Idx → EReal) : (⟨4, ![32, 256, 56, 56]⟩ : Shape).Idx → EReal :=
  fun i => (∑ c : Fin 128, ∑ p : Fin 3, ∑ q : Fin 3,
      w (ix4 (i 1) c p q) * padAt x (i 0) c ((i 2).val + p.val) ((i 3).val + q.val)) + β (ix1 (i 1))

theorem conv_apply (x : (⟨4, ![32, 128, 56, 56]⟩ : Shape).Idx → EReal) (w : (⟨4, ![256, 128, 3, 3]⟩ : Shape).Idx → EReal)
    (β : (⟨1, ![256]⟩ : Shape).Idx → EReal) (b : Fin 32) (o : Fin 256) (h v : Fin 56) :
    conv x w β (ix4 b o h v) = (∑ c : Fin 128, ∑ p : Fin 3, ∑ q : Fin 3,
      w (ix4 o c p q) * padAt x b c (h.val + p.val) (v.val + q.val)) + β (ix1 o) := rfl

end Cert.ConvSpec

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.ConvLaw.lean ====
/-
  The convolution as three tap-row products.

  Writing the 3 × 3 × 128 taps of one output element tap row by tap row, and inside a tap row as ONE sum over
  k = q · 128 + c (tap column q, channel c) — the order in which a row of the patch matrix and a column of the
  filter matrix are laid out —, the convolution's triple sum over (c, p, q) becomes
  ((0 + T 0) + T 1) + T 2 with T p = Σ_k x̄(b, c, h + p, v + q) · w(o, c, p, q).  Only commutativity and associativity
  of the extended reals' sum and product are used.
-/
import proofs.«166849_j29085518529124_2_alg».proof.Proof.Spec
import proofs.«166849_j29085518529124_2_alg».proof.Proof.LibBlocks

noncomputable section

open scoped BigOperators

namespace Cert.ConvSpec

open Idealize.ShloMosaic Idealize.ShloMosaic.ValueIdx

/-- The channel of position `k = q · 128 + c` of a tap row. -/
def chan (k : Fin 384) : Fin 128 := ⟨k.val % 128, Nat.mod_lt _ (by norm_num)⟩
/-- Its tap column. -/
def tcol (k : Fin 384) : Fin 3 := ⟨k.val / 128, by have := k.isLt; omega⟩

/-- Tap row `p` of the element (b, o, h, v): the sum over the row's 384 positions. -/
def tap (x : (⟨4, ![32, 128, 56, 56]⟩ : Shape).Idx → EReal) (w : (⟨4, ![256, 128, 3, 3]⟩ : Shape).Idx → EReal)
    (b : Fin 32) (o : Fin 256) (h v : Fin 56) (p : Fin 3) : EReal :=
  ∑ k : Fin 384, padAt x b (chan k) (h.val + p.val) (v.val + (tcol k).val) * w (ix4 o (chan k) p (tcol k))

theorem tap_eq (x : (⟨4, ![32, 128, 56, 56]⟩ : Shape).Idx → EReal) (w : (⟨4, ![256, 128, 3, 3]⟩ : Shape).Idx → EReal)
    (b : Fin 32) (o : Fin 256) (h v : Fin 56) (p : Fin 3) :
    tap x w b o h v p = ∑ q : Fin 3, ∑ c : Fin 128, w (ix4 o c p q) * padAt x b c (h.val + p.val) (v.val + q.val) := by
  unfold tap
  rw [Cert.LibBlocks.sum_entries (A := 3) (B := 128)
    (fun k : Fin (3 * 128) => padAt x b (chan k) (h.val + p.val) (v.val + (tcol k).val) * w (ix4 o (chan k) p (tcol k)))]
  refine Finset.sum_congr rfl fun q _ => Finset.sum_congr rfl fun c _ => ?_
  have ec : chan (Cert.LibBlocks.entry q c) = c := Fin.ext (by
    show (q.val * 128 + c.val) % 128 = c.val
    have := c.isLt; omega)
  have eq' : tcol (Cert.LibBlocks.entry q c) = q := Fin.ext (by
    show (q.val * 128 + c.val) / 128 = q.val
    have := c.isLt; omega)
  show padAt x b (chan (Cert.LibBlocks.entry q c)) (h.val + p.val) (v.val + (tcol (Cert.LibBlocks.entry q c)).val)
      * w (ix4 o (chan (Cert.LibBlocks.entry q c)) p (tcol (Cert.LibBlocks.entry q c))) = _
  rw [ec, eq', mul_comm]

/-- The convolution is its three tap rows added one after the other onto zero, plus the bias. -/
theorem conv_eq_taps (x : (⟨4, ![32, 128, 56, 56]⟩ : Shape).Idx → EReal) (w : (⟨4, ![256, 128, 3, 3]⟩ : Shape).Idx → EReal)
    (β : (⟨1, ![256]⟩ : Shape).Idx → EReal) (b : Fin 32) (o : Fin 256) (h v : Fin 56) :
    conv x w β (ix4 b o h v) = (((0 + tap x w b o h v 0) + tap x w b o h v 1) + tap x w b o h v 2) + β (ix1 o) := by
  rw [conv_apply, zero_add, tap_eq, tap_eq, tap_eq]
  congr 1
  rw [Finset.sum_comm, Fin.sum_univ_three]
  congr 1
  · congr 1
    · exact Finset.sum_comm
    · exact Finset.sum_comm
  · exact Finset.sum_comm

end Cert.ConvSpec

end
-- ==== Proof.KArrays.lean ====
/-
  The three arrays the kernel's windows are cut from, as the region finds them, read at coordinates.

  Before the region the program lays the input out channels last — the [32, 56, 56, 128] array whose entry
  (b, r, s, c) is x(b, c, r, s) — and the filter bank as three [384, 256] matrices: entry (p, k, o) of the
  [3, 384, 256] array, with k = q · 128 + c, is w(o, c, p, q).  The changes of float format in between are the
  identity on the extended reals.  The bias is used as launched.
-/
import proofs.«166849_j29085518529124_2_alg».proof.Proof.KBodyIdeal
import proofs.«166849_j29085518529124_2_alg».proof.Proof.ConvLaw
import Idealize.ShloMosaic.Lib.StableHlo.Run
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem Idealize.ShloMosaic.StableHlo Idealize.ShloMosaic.ValueIdx
open Cert.ConvSpec (chan tcol)

section AnyFloat

variable {F : FTy → Type} [FloatOps F] (m : (ℓ : Loc nD τ sig) → Buf (Elt F) ℓ)

/-- The input, channels last, as the host lines before the region leave it. -/
theorem V_main_v1 (c : Dev nD) : (V m c main_v1 : S32x56x56x128.Idx → Elt F .bf16)
    = truncf .bf16 (transpose S32x56x56x128 [0, 2, 3, 1] (m ((c : Thread nD τ).loc main_arg0) : S32x128x56x56.Idx → Elt F .f32) transposes_S32x128x56x56_S32x56x56x128_0_2_3_1) bitsLt_bf16_f32 := by
  show StableHlo.after hostOps0 (fun b => m (c, b)) (Proc.devRef .tc main_v1) = _
  after_results

/-- The filter bank as three matrices. -/
theorem V_main_v4 (c : Dev nD) : (V m c main_v4 : S3x384x256.Idx → Elt F .bf16)
    = shapeCast S3x384x256 (truncf .bf16 (transpose S3x3x128x256 [2, 3, 1, 0] (m ((c : Thread nD τ).loc main_arg1) : S256x128x3x3.Idx → Elt F .f32) transposes_S256x128x3x3_S3x3x128x256_2_3_1_0) bitsLt_bf16_f32) shapeCasts_S3x3x128x256_S3x384x256 := by
  show StableHlo.after hostOps0 (fun b => m (c, b)) (Proc.devRef .tc main_v4) = _
  after_results
  rfl

end AnyFloat

variable (m : (ℓ : Loc nD τ sig) → Buf (Elt Ideal) ℓ)

/-- Entry (b, r, s, ch) of the channels-last input is x(b, ch, r, s). -/
theorem V_main_v1_apply (c : Dev nD) (b : Fin 32) (r s : Fin 56) (ch : Fin 128) :
    (V m c main_v1 : S32x56x56x128.Idx → Elt Ideal .bf16) (ix4 b r s ch)
      = (m ((c : Thread nD τ).loc main_arg0) : S32x128x56x56.Idx → Elt Ideal .f32) (ix4 b ch r s) := by
  rw [V_main_v1 (F := Ideal) m c]
  show transpose S32x56x56x128 [0, 2, 3, 1] (m ((c : Thread nD τ).loc main_arg0) : S32x128x56x56.Idx → Elt Ideal .f32)
    transposes_S32x128x56x56_S32x56x56x128_0_2_3_1 (ix4 b r s ch) = _
  refine transpose_apply _ _ _ _ (ix4 b ch r s) fun a => ?_
  match a with
  | ⟨0, _⟩ => rfl
  | ⟨1, _⟩ => rfl
  | ⟨2, _⟩ => rfl
  | ⟨3, _⟩ => rfl

/-- Entry (p, k, o) of the filter matrices is w(o, c, p, q) for k = q · 128 + c. -/
theorem V_main_v4_apply (c : Dev nD) (p : Fin 3) (k : Fin 384) (o : Fin 256) :
    (V m c main_v4 : S3x384x256.Idx → Elt Ideal .bf16) (ix3 p k o)
      = (m ((c : Thread nD τ).loc main_arg1) : S256x128x3x3.Idx → Elt Ideal .f32) (ix4 o (chan k) p (tcol k)) := by
  rw [V_main_v4 (F := Ideal) m c]
  refine (shapeCast_apply _ _ (ix3 p k o) (ix4 p (tcol k) (chan k) o) ?_).trans ?_
  · rw [Shape.rowMajor_val_four, Shape.rowMajor_val_three]
    show ((p.val * 3 + k.val / 128) * 128 + k.val % 128) * 256 + o.val = (p.val * 384 + k.val) * 256 + o.val
    have := k.isLt
    omega
  show transpose S3x3x128x256 [2, 3, 1, 0] (m ((c : Thread nD τ).loc main_arg1) : S256x128x3x3.Idx → Elt Ideal .f32)
    transposes_S256x128x3x3_S3x3x128x256_2_3_1_0 (ix4 p (tcol k) (chan k) o) = _
  refine transpose_apply _ _ _ _ (ix4 o (chan k) p (tcol k)) fun a => ?_
  match a with
  | ⟨0, _⟩ => rfl
  | ⟨1, _⟩ => rfl
  | ⟨2, _⟩ => rfl
  | ⟨3, _⟩ => rfl

end Cert.KernelIdeal.Arrays

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.KBlock.lean ====
import proofs.«166849_j29085518529124_2_alg».proof.Proof.KBodyIdeal
import proofs.«166849_j29085518529124_2_alg».proof.Proof.LibPlainDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

/-!
  The output block of the kernel body at the extended reals, read at one index.

  The body surrounds the block of two images with a ring of zeros, gathers for each of the three tap rows the three
  column-shifted windows of the padded block side by side into a matrix with one row per pixel, multiplies it with that
  tap row's filter matrix, adds the three products into an accumulator that starts at zero, and stores the accumulator
  transposed with the bias added along the channel axis.  At output channel `o` and pixel `(h, v)` of image `b`
  this is the sum over the tap rows `p`, and over `k = q * 128 + c` (tap column `q`, input channel `c`), of the
  padded block at `(b, h + p, v + q, c)` times the filter entry `(p, k, o)`, plus the bias at `o`.
-/

namespace Cert.KernelIdeal.Block

open Cert.KernelIdeal Cert.KernelIdeal.Gen Cert.KernelIdeal.Body Idealize.ShloMosaic Idealize.ShloMosaic.ValueIdx
open scoped BigOperators

/-- The input block with its ring of zeros, read at row r and column s of the padded 58 × 58 plane. -/
def padBlk (x1 : Vec Ideal S2x56x56x128 .bf16) (b : Fin 2) (r s : ℕ) (c : Fin 128) : EReal :=
  if h : 1 ≤ r ∧ r ≤ 56 ∧ 1 ≤ s ∧ s ≤ 56 then x1 (ix4 b ⟨r - 1, by omega⟩ ⟨s - 1, by omega⟩ c) else 0

/-! ## The padded scratch -/

theorem hz4 : (![0, 0, 0, 0] : Fin 4 → ℕ) = fun _ => 0 := funext fun a => by fin_cases a <;> rfl
theorem hz3 : (![0, 0, 0] : Fin 3 → ℕ) = fun _ => 0 := funext fun a => by fin_cases a <;> rfl
theorem hz2 : (![0, 0] : Fin 2 → ℕ) = fun _ => 0 := funext fun a => by fin_cases a <;> rfl
theorem hz1 : (![0] : Fin 1 → ℕ) = fun _ => 0 := funext fun a => by fin_cases a <;> rfl

/-- The zero fill reads zero everywhere. -/
theorem pay3_apply (j : S2x58x58x128.Idx) : k0_pay3 (F := Ideal) j = (0 : EReal) := by
  unfold k0_pay3
  rw [shapeCast_self]
  exact Ideal.ofBits_zero_bf16

/-- The block as it is written into the scratch is the block. -/
theorem pay4_eq (v : Vec Ideal S2x56x56x128 .bf16) : k0_pay4 (F := Ideal) v = v := by
  unfold k0_pay4
  show shapeCast S2x56x56x128 (shapeCast S2x56x56x128 v _) _ = v
  rw [shapeCast_self, shapeCast_self]

/-- Outside the interior the padded block is zero. -/
theorem padBlk_of_not (x1 : Vec Ideal S2x56x56x128 .bf16) (b : Fin 2) (r s : ℕ) (c : Fin 128)
    (h : ¬(1 ≤ r ∧ r ≤ 56 ∧ 1 ≤ s ∧ s ≤ 56)) : padBlk x1 b r s c = 0 := by
  unfold padBlk; rw [dif_neg h]

/-- The padded scratch at `(b, r, s, c)`. -/
theorem padded_apply (x1 : Vec Ideal S2x56x56x128 .bf16) (b : Fin 2) (r s : Fin 58) (c : Fin 128) :
    padded (F := Ideal) x1 (ix4 b r s c) = padBlk x1 b r.val s.val c := by
  unfold padded padWrites
  rw [View.canon_unit_zero hz4, View.ld_unit_zero hz4, pay4_eq]
  by_cases hr : 1 ≤ r.val ∧ r.val ≤ 56
  · -- a row the second store rewrites
    have hr' : r.val - 1 < 56 := by omega
    have e : ix4 b r s c = rRows.emb (ix4 b (⟨r.val - 1, hr'⟩ : Fin 56) s c) := by
      funext a; refine Fin.ext ?_
      match a with
      | ⟨0, _⟩ => show b.val = 0 + 1 * b.val; omega
      | ⟨1, _⟩ => show r.val = 1 + 1 * (r.val - 1); omega
      | ⟨2, _⟩ => show s.val = 0 + 1 * s.val; omega
      | ⟨3, _⟩ => show c.val = 0 + 1 * c.val; omega
    rw [e, View.canon_cons_emb]
    unfold updateSlice
    by_cases hs : 1 ≤ s.val ∧ s.val ≤ 56
    · -- a column the block is written into
      rw [dif_pos (by
        intro a
        match a with
        | ⟨0, _⟩ => exact ⟨Nat.zero_le _, by show b.val < 0 + 2; omega⟩
        | ⟨1, _⟩ => exact ⟨Nat.zero_le _, by show r.val - 1 < 0 + 56; omega⟩
        | ⟨2, _⟩ => exact ⟨by show 1 ≤ s.val; omega, by show s.val < 1 + 56; omega⟩
        | ⟨3, _⟩ => exact ⟨Nat.zero_le _, by show c.val < 0 + 128; omega⟩)]
      unfold padBlk
      rw [dif_pos ⟨hr.1, hr.2, hs.1, hs.2⟩]
      refine congrArg x1 (funext fun a => Fin.ext ?_)
      match a with
      | ⟨0, _⟩ => show b.val - 0 = b.val; omega
      | ⟨1, _⟩ => show (r.val - 1) - 0 = r.val - 1; omega
      | ⟨2, _⟩ => show s.val - 1 = s.val - 1; rfl
      | ⟨3, _⟩ => show c.val - 0 = c.val; omega
    · -- a column of the ring
      rw [dif_neg (by
        intro hin
        have h2 := hin ⟨2, by decide⟩
        have h2a : 1 ≤ s.val := h2.1
        have h2b : s.val < 1 + 56 := h2.2
        exact hs ⟨h2a, by omega⟩)]
      rw [padBlk_of_not x1 b r.val s.val c (fun h => hs ⟨h.2.2.1, h.2.2.2⟩)]
      exact pay3_apply _
  · -- a row of the ring
    rw [View.canon_cons_of_not_mem _ _ (by
      intro hm
      have hm' : ix4 b r s c ∈ (Rect.unit (s := S2x58x58x128) ![0, 1, 0, 0] S2x56x58x128.size
          inb_S2x58x58x128_S2x56x58x128_0_1_0_0).set := hm
      have h1 := (Rect.mem_set_unit.mp hm') ⟨1, by decide⟩
      have h1a : 1 ≤ r.val := h1.1
      have h1b : r.val < 1 + 56 := h1.2
      exact hr ⟨h1a, by omega⟩)]
    rw [View.canon_unit_zero hz4, padBlk_of_not x1 b r.val s.val c (fun h => hr ⟨h.1, h.2.1⟩)]
    exact pay3_apply _

/-! ## A window of the padded scratch -/

/-- The `[2, 56, 56, 128]` window of the padded scratch at row offset `p` and column offset `q`, at `(b, h, v, c)`. -/
theorem tap_apply (x1 : Vec Ideal S2x56x56x128 .bf16) (p q : ℕ)
    (inb : ∀ a, (![0, p, q, 0] : Fin 4 → ℕ) a + S2x56x56x128.size a ≤ S2x58x58x128.size a)
    (b : Fin 2) (h v : Fin 56) (c : Fin 128) :
    View.ld (padded (F := Ideal) x1) (Rect.unit (s := S2x58x58x128) ![0, p, q, 0] S2x56x56x128.size inb) (ix4 b h v c)
      = padBlk x1 b (h.val + p) (v.val + q) c := by
  have hp : p + 56 ≤ 58 := inb (1 : Fin 4)
  have hq : q + 56 ≤ 58 := inb (2 : Fin 4)
  have e : (Rect.unit (s := S2x58x58x128) ![0, p, q, 0] S2x56x56x128.size inb).idx (ix4 b h v c)
      = ix4 b (⟨h.val + p, by omega⟩ : Fin 58) (⟨v.val + q, by omega⟩ : Fin 58) c := by
    funext a; refine Fin.ext ?_
    match a with
    | ⟨0, _⟩ => show 0 + 1 * b.val = b.val; omega
    | ⟨1, _⟩ => show p + 1 * h.val = h.val + p; omega
    | ⟨2, _⟩ => show q + 1 * v.val = v.val + q; omega
    | ⟨3, _⟩ => show 0 + 1 * c.val = c.val; omega
  show padded (F := Ideal) x1 ((Rect.unit (s := S2x58x58x128) ![0, p, q, 0] S2x56x56x128.size inb).idx (ix4 b h v c)) = _
  rw [e]
  exact padded_apply x1 b _ _ c

/-! ## The matrix of patches and its product with a tap row's filter matrix -/

/-- Three `[2, 56, 56, 128]` windows side by side along the channel axis, one row per pixel: row `n` — pixel `(h, v)`
    of image `b` — at column `k` is window `k / 128` at channel `k % 128` of that pixel. -/
theorem patch_apply (w0 w1 w2 : Vec Ideal S2x56x56x128 .bf16) (g : ℕ → Fin 128 → EReal)
    (b : Fin 2) (h v : Fin 56)
    (h0 : ∀ c, w0 (ix4 b h v c) = g 0 c) (h1 : ∀ c, w1 (ix4 b h v c) = g 1 c) (h2 : ∀ c, w2 (ix4 b h v c) = g 2 c)
    (n : Fin 6272) (hn : n.val = b.val * 3136 + h.val * 56 + v.val) (k : Fin 384) :
    shapeCast S6272x384
        (concatenate S2x56x56x384 3 [⟨S2x56x56x128, w0⟩, ⟨S2x56x56x128, w1⟩, ⟨S2x56x56x128, w2⟩]
          concatenates_S2x56x56x128_S2x56x56x128_S2x56x56x128_S2x56x56x384_d3)
        shapeCasts_S2x56x56x384_S6272x384 (ix2 n k)
      = g (k.val / 128) ⟨k.val % 128, Nat.mod_lt _ (by norm_num)⟩ := by
  refine (shapeCast_apply _ _ (ix2 n k) (ix4 b h v k) ?_).trans ?_
  · rw [Shape.rowMajor_val_four, Shape.rowMajor_val_two]
    show ((b.val * 56 + h.val) * 56 + v.val) * 384 + k.val = n.val * 384 + k.val
    omega
  · have hk := k.isLt
    have hi : ∀ (c : Fin 128) (b' : Fin S2x56x56x128.rank), b'.cast (rfl : S2x56x56x128.rank = S2x56x56x384.rank) ≠ (3 : Fin 4) →
        ((ix4 b h v c : S2x56x56x128.Idx) b').val = ((ix4 b h v k : S2x56x56x384.Idx) (b'.cast rfl)).val := fun c b' hb => by
      match b', hb with
      | ⟨0, _⟩, _ => rfl
      | ⟨1, _⟩, _ => rfl
      | ⟨2, _⟩, _ => rfl
      | ⟨3, _⟩, hb => exact absurd rfl hb
    rcases Nat.lt_or_ge k.val 128 with hk0 | hk0
    · refine (concatenate_apply_piece (3 : Fin 4) _ _ (ix4 b h v k) 0 (by show (0 : ℕ) < 3; omega) S2x56x56x128 w0 rfl rfl 0 rfl
        (ix4 b h v ⟨k.val % 128, Nat.mod_lt _ (by norm_num)⟩) (hi _) ?_).trans ?_
      · show 0 + k.val % 128 = k.val; omega
      · rw [h0, show k.val / 128 = 0 by omega]
    rcases Nat.lt_or_ge k.val 256 with hk1 | hk1
    · refine (concatenate_apply_piece (3 : Fin 4) _ _ (ix4 b h v k) 1 (by show (1 : ℕ) < 3; omega) S2x56x56x128 w1 rfl rfl 128 rfl
        (ix4 b h v ⟨k.val % 128, Nat.mod_lt _ (by norm_num)⟩) (hi _) ?_).trans ?_
      · show 128 + k.val % 128 = k.val; omega
      · rw [h1, show k.val / 128 = 1 by omega]
    · refine (concatenate_apply_piece (3 : Fin 4) _ _ (ix4 b h v k) 2 (by show (2 : ℕ) < 3; omega) S2x56x56x128 w2 rfl rfl 256 rfl
        (ix4 b h v ⟨k.val % 128, Nat.mod_lt _ (by norm_num)⟩) (hi _) ?_).trans ?_
      · show 256 + k.val % 128 = k.val; omega
      · rw [h2, show k.val / 128 = 2 by omega]

/-- The matrix of patches of three windows. -/
abbrev patchM (w0 w1 w2 : Vec Ideal S2x56x56x128 .bf16) : FVec Ideal S6272x384 .bf16 :=
  shapeCast S6272x384
    (concatenate S2x56x56x384 3 [⟨S2x56x56x128, w0⟩, ⟨S2x56x56x128, w1⟩, ⟨S2x56x56x128, w2⟩]
      concatenates_S2x56x56x128_S2x56x56x128_S2x56x56x128_S2x56x56x384_d3)
    shapeCasts_S2x56x56x384_S6272x384

/-- Its product with one tap row's `[384, 256]` filter matrix, into a zero accumulator. -/
abbrev tapProd (w0 w1 w2 : Vec Ideal S2x56x56x128 .bf16) (wt : Vec Ideal S1x384x256 .bf16) : FVec Ideal S6272x256 .f32 :=
  matmul (φ₁ := .bf16) (φ₂ := .bf16) dot_S6272x384_S384x256_S6272x256_1_0_0_1_n_n none (patchM w0 w1 w2)
    (shapeCast S384x256 wt shapeCasts_S1x384x256_S384x256 : FVec Ideal S384x256 .bf16)
    (constant (F := Ideal) S6272x256 .f32 0x00000000#32)

/-- The product at row `n` — pixel `(h, v)` of image `b` — and output channel `o`. -/
theorem tapProd_apply (w0 w1 w2 : Vec Ideal S2x56x56x128 .bf16) (wt : Vec Ideal S1x384x256 .bf16) (g : ℕ → Fin 128 → EReal)
    (b : Fin 2) (h v : Fin 56)
    (h0 : ∀ c, w0 (ix4 b h v c) = g 0 c) (h1 : ∀ c, w1 (ix4 b h v c) = g 1 c) (h2 : ∀ c, w2 (ix4 b h v c) = g 2 c)
    (n : Fin 6272) (hn : n.val = b.val * 3136 + h.val * 56 + v.val) (o : Fin 256) :
    tapProd w0 w1 w2 wt (ix2 n o)
      = ∑ k : Fin 384, g (k.val / 128) ⟨k.val % 128, Nat.mod_lt _ (by norm_num)⟩ * wt (ix3 (0 : Fin 1) k o) := by
  refine (Cert.LibPlainDot.matmul_plain_apply (φ₁ := .bf16) (φ₂ := .bf16) dot_S6272x384_S384x256_S6272x256_1_0_0_1_n_n
    rfl rfl rfl rfl rfl rfl none (patchM w0 w1 w2)
    (shapeCast S384x256 wt shapeCasts_S1x384x256_S384x256 : FVec Ideal S384x256 .bf16) n o).trans ?_
  refine Finset.sum_congr rfl fun k _ => ?_
  exact congrArg₂ (· * ·) (patch_apply w0 w1 w2 g b h v h0 h1 h2 n hn k) (shapeCast_1ab_ab_apply wt _ k o)

/-! ## The payloads of the accumulator's stores -/

theorem pay5_apply (j : S6272x256.Idx) : k0_pay5 (F := Ideal) j = (0 : EReal) := by
  unfold k0_pay5
  rw [shapeCast_self]
  exact Ideal.ofBits_zero_f32

theorem pay6_eq (w0 w1 w2 : Vec Ideal S2x56x56x128 .bf16) (wt : Vec Ideal S1x384x256 .bf16) :
    k0_pay6 (F := Ideal) w0 w1 w2 wt = tapProd w0 w1 w2 wt := by
  unfold k0_pay6; rfl

theorem pay7_apply (a : Vec Ideal S6272x256 .f32) (c : FVec Ideal S6272x256 .f32) (j : S6272x256.Idx) :
    k0_pay7 (F := Ideal) a c j = (a j + c j : EReal) := by
  have e : k0_pay7 (F := Ideal) a c = addf a c := by unfold k0_pay7; exact shapeCast_self _ _
  rw [e]; rfl

theorem pay8_apply (w0 w1 w2 : Vec Ideal S2x56x56x128 .bf16) (wt : Vec Ideal S1x384x256 .bf16) (a : Vec Ideal S6272x256 .f32)
    (j : S6272x256.Idx) : k0_pay8 (F := Ideal) w0 w1 w2 wt a j = (a j + tapProd w0 w1 w2 wt j : EReal) := by
  have e : k0_pay8 (F := Ideal) w0 w1 w2 wt a = addf a (tapProd w0 w1 w2 wt) := by unfold k0_pay8; exact shapeCast_self _ _
  rw [e]; rfl

theorem pay1_apply (w0 w1 w2 : Vec Ideal S2x56x56x128 .bf16) (wt : Vec Ideal S1x384x256 .bf16) (a : Vec Ideal S6272x256 .f32)
    (j : S6272x256.Idx) : k0_pay1 (F := Ideal) (k0_pay9 w0 w1 w2) wt a j = (a j + tapProd w0 w1 w2 wt j : EReal) := by
  have e : k0_pay1 (F := Ideal) (k0_pay9 w0 w1 w2) wt a = addf a (tapProd w0 w1 w2 wt) := by
    unfold k0_pay1 k0_pay9; exact shapeCast_self _ _
  rw [e]; rfl

/-! ## The accumulator after the three tap rows -/

/-- A tap row's `[1, 384, 256]` slab of the filter bank, at `(0, k, o)`. -/
theorem slab_apply (x2 : Vec Ideal S3x384x256 .bf16) (p : ℕ) (hp : p < 3)
    (inb : ∀ a, (![p, 0, 0] : Fin 3 → ℕ) a + S1x384x256.size a ≤ S3x384x256.size a) (k : Fin 384) (o : Fin 256) :
    View.ld x2 (Rect.unit (s := S3x384x256) ![p, 0, 0] S1x384x256.size inb) (ix3 (0 : Fin 1) k o) = x2 (ix3 (⟨p, hp⟩ : Fin 3) k o) := by
  show x2 ((Rect.unit (s := S3x384x256) ![p, 0, 0] S1x384x256.size inb).idx (ix3 (0 : Fin 1) k o)) = _
  refine congrArg x2 (funext fun a => Fin.ext ?_)
  match a with
  | ⟨0, _⟩ => show p + 1 * 0 = p; omega
  | ⟨1, _⟩ => show 0 + 1 * k.val = k.val; omega
  | ⟨2, _⟩ => show 0 + 1 * o.val = o.val; omega

/-- The sum one tap row adds at pixel `(h, v)` of image `b` and output channel `o`. -/
def tapSum (x1 : Vec Ideal S2x56x56x128 .bf16) (x2 : Vec Ideal S3x384x256 .bf16) (b : Fin 2) (h v : Fin 56) (o : Fin 256)
    (p : Fin 3) : EReal :=
  ∑ k : Fin 384, padBlk x1 b (h.val + p.val) (v.val + k.val / 128) ⟨k.val % 128, Nat.mod_lt _ (by norm_num)⟩ * x2 (ix3 p k o)

/-- A tap row's product, over the windows of the padded scratch and the filter bank's slab. -/
theorem tapRow_apply (x1 : Vec Ideal S2x56x56x128 .bf16) (x2 : Vec Ideal S3x384x256 .bf16) (p : ℕ) (hp : p < 3)
    (i0 : ∀ a, (![0, p, 0, 0] : Fin 4 → ℕ) a + S2x56x56x128.size a ≤ S2x58x58x128.size a)
    (i1 : ∀ a, (![0, p, 1, 0] : Fin 4 → ℕ) a + S2x56x56x128.size a ≤ S2x58x58x128.size a)
    (i2 : ∀ a, (![0, p, 2, 0] : Fin 4 → ℕ) a + S2x56x56x128.size a ≤ S2x58x58x128.size a)
    (iw : ∀ a, (![p, 0, 0] : Fin 3 → ℕ) a + S1x384x256.size a ≤ S3x384x256.size a)
    (b : Fin 2) (h v : Fin 56) (n : Fin 6272) (hn : n.val = b.val * 3136 + h.val * 56 + v.val) (o : Fin 256) :
    tapProd (View.ld (padded (F := Ideal) x1) (Rect.unit (s := S2x58x58x128) ![0, p, 0, 0] S2x56x56x128.size i0))
        (View.ld (padded (F := Ideal) x1) (Rect.unit (s := S2x58x58x128) ![0, p, 1, 0] S2x56x56x128.size i1))
        (View.ld (padded (F := Ideal) x1) (Rect.unit (s := S2x58x58x128) ![0, p, 2, 0] S2x56x56x128.size i2))
        (View.ld x2 (Rect.unit (s := S3x384x256) ![p, 0, 0] S1x384x256.size iw)) (ix2 n o)
      = tapSum x1 x2 b h v o ⟨p, hp⟩ := by
  refine (tapProd_apply _ _ _ _ (fun q c => padBlk x1 b (h.val + p) (v.val + q) c) b h v
    (fun c => tap_apply x1 p 0 i0 b h v c) (fun c => tap_apply x1 p 1 i1 b h v c) (fun c => tap_apply x1 p 2 i2 b h v c)
    n hn o).trans ?_
  unfold tapSum
  refine Finset.sum_congr rfl fun k _ => ?_
  exact congrArg (_ * ·) (slab_apply x2 p hp iw k o)

/-- The accumulator after the third tap row, at row `n` — pixel `(h, v)` of image `b` — and output channel `o`. -/
theorem acc3_apply (x1 : Vec Ideal S2x56x56x128 .bf16) (x2 : Vec Ideal S3x384x256 .bf16)
    (b : Fin 2) (h v : Fin 56) (n : Fin 6272) (hn : n.val = b.val * 3136 + h.val * 56 + v.val) (o : Fin 256) :
    View.canon (accWrites3 (F := Ideal) x1 x2) (ix2 n o)
      = ((((0 : EReal) + tapSum x1 x2 b h v o 0) + tapSum x1 x2 b h v o 1) + tapSum x1 x2 b h v o 2) := by
  have e1 : View.canon (accWrites1 (F := Ideal) x1 x2) (ix2 n o) = ((0 : EReal) + tapSum x1 x2 b h v o 0) := by
    unfold accWrites1
    rw [View.canon_cons_unit_zero hz2, View.canon_unit_zero hz2, View.ld_unit_zero hz2, pay7_apply, pay6_eq, pay5_apply]
    exact congrArg ((0 : EReal) + ·) (tapRow_apply x1 x2 0 (by norm_num) _ _ _ _ b h v n hn o)
  have e2 : View.canon (accWrites2 (F := Ideal) x1 x2) (ix2 n o)
      = (((0 : EReal) + tapSum x1 x2 b h v o 0) + tapSum x1 x2 b h v o 1) := by
    unfold accWrites2
    rw [View.canon_cons_unit_zero hz2, View.ld_unit_zero hz2, pay8_apply, e1]
    exact congrArg (((0 : EReal) + tapSum x1 x2 b h v o 0) + ·) (tapRow_apply x1 x2 1 (by norm_num) _ _ _ _ b h v n hn o)
  unfold accWrites3
  rw [View.canon_cons_unit_zero hz2, View.ld_unit_zero hz2, pay1_apply, e2]
  exact congrArg ((((0 : EReal) + tapSum x1 x2 b h v o 0) + tapSum x1 x2 b h v o 1) + ·)
    (tapRow_apply x1 x2 2 (by norm_num) _ _ _ _ b h v n hn o)

/-! ## The output block -/

/-- The accumulator's two halves transposed plus the bias along the channel axis, at `(b, o, l)`. -/
theorem pay2_apply (acc : Vec Ideal S6272x256 .f32) (bias : Vec Ideal S256 .f32) (b : Fin 2) (o : Fin 256) (l : Fin 3136)
    (n : Fin 6272) (hn : n.val = b.val * 3136 + l.val) :
    k0_pay2 (F := Ideal) acc bias (ix3 b o l) = (acc (ix2 n o) + bias (ix1 o) : EReal) := by
  have e : k0_pay2 (F := Ideal) acc bias
      = addf (transpose S2x256x3136 [0, 2, 1] (shapeCast S2x3136x256 acc shapeCasts_S6272x256_S2x3136x256)
          transposes_S2x3136x256_p0_2_1_S2x256x3136)
        (broadcastTo S2x256x3136 (shapeCast S1x256x1 bias shapeCasts_S256_S1x256x1) broadcasts_S1x256x1_S2x256x3136) := by
    unfold k0_pay2; rfl
  rw [e]
  show (_ + _ : EReal) = _
  refine congrArg₂ (· + ·) ?_ ?_
  · refine (transpose_ix3_021_apply _ _ b o l).trans ?_
    refine shapeCast_apply _ _ (ix3 b l o) (ix2 n o) ?_
    rw [Shape.rowMajor_val_two, Shape.rowMajor_val_three]
    show n.val * 256 + o.val = (b.val * 3136 + l.val) * 256 + o.val
    rw [hn]
  · refine (broadcastTo_apply _ _ (ix3 b o l) (ix3 (0 : Fin 1) o (0 : Fin 1)) ?_).trans ?_
    · intro a
      match a with
      | ⟨0, _⟩ => rfl
      | ⟨1, _⟩ => rfl
      | ⟨2, _⟩ => rfl
    · refine shapeCast_apply _ _ (ix3 (0 : Fin 1) o (0 : Fin 1)) (ix1 o) ?_
      rw [Shape.rowMajor_val_one, Shape.rowMajor_val_three]
      show o.val = (0 * 256 + o.val) * 1 + 0
      omega

/-- **The output block at an index.**  At output channel `o` and pixel `l = h * 56 + v` of image `b`: the three tap
    rows' sums added in turn to zero, plus the bias. -/
theorem outBlock_apply (x1 : Vec Ideal S2x56x56x128 .bf16) (x2 : Vec Ideal S3x384x256 .bf16) (x3 : Vec Ideal S256 .f32)
    (b : Fin 2) (o : Fin 256) (h v : Fin 56) (l : Fin 3136) (hl : l.val = h.val * 56 + v.val) :
    outBlock (F := Ideal) x1 x2 x3 (ix3 b o l)
      = (((0 + ∑ k : Fin 384, padBlk x1 b (h.val + 0) (v.val + k.val / 128) ⟨k.val % 128, Nat.mod_lt _ (by norm_num)⟩ * x2 (ix3 0 k o))
          + ∑ k : Fin 384, padBlk x1 b (h.val + 1) (v.val + k.val / 128) ⟨k.val % 128, Nat.mod_lt _ (by norm_num)⟩ * x2 (ix3 1 k o))
          + ∑ k : Fin 384, padBlk x1 b (h.val + 2) (v.val + k.val / 128) ⟨k.val % 128, Nat.mod_lt _ (by norm_num)⟩ * x2 (ix3 2 k o))
        + x3 (ix1 o) := by
  have hb := b.isLt
  have hlt := l.isLt
  unfold outBlock
  rw [View.canon_unit_zero hz3, View.ld_unit_zero hz2, View.ld_unit_zero hz1,
    pay2_apply _ _ b o l (⟨b.val * 3136 + l.val, by omega⟩ : Fin 6272) rfl,
    acc3_apply x1 x2 b h v (⟨b.val * 3136 + l.val, by omega⟩ : Fin 6272) (by show b.val * 3136 + l.val = _; omega) o]
  rfl

end Cert.KernelIdeal.Block

end
-- ==== Proof.KFinal.lean ====
/-
  From the blocks to the result: each grid point's output block is the convolution of the three argument arrays on
  the point's two images; the sixteen blocks fill the [32, 256, 3136] result array; the host line after the region
  casts it to [32, 256, 56, 56], which is the convolution itself.
-/
import proofs.«166849_j29085518529124_2_alg».proof.Proof.KBodyIdeal
import proofs.«166849_j29085518529124_2_alg».proof.Proof.KArrays
import proofs.«166849_j29085518529124_2_alg».proof.Proof.ConvLaw
import proofs.«166849_j29085518529124_2_alg».proof.Proof.KBlock
import Idealize.ShloMosaic.Lib.StableHlo.Run
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body Cert.KernelIdeal.Arrays Cert.KernelIdeal.Block
open Idealize.ShloMosaic Idealize.ShloMosaic.TcCoe Idealize.SL.Sem Idealize.ShloMosaic.StableHlo Idealize.ShloMosaic.ValueIdx
open Idealize.ShloMosaic.Pipeline (Dat)
open Cert.ConvSpec (chan tcol tap padAt conv conv_eq_taps)
open scoped BigOperators

variable (m : (ℓ : Loc nD τ sig) → Buf (Elt Ideal) ℓ) (ρ : Dev nD → PrngReg)

/-! ## The input blocks at a point, read at coordinates -/

theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = 0 :=
  (by decide +kernel : ∀ t : Fin grid0.N, win0_2.index t 0 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The image of the batch a point's block holds at its place `b`. -/
def img (t : Fin cfg0.N) (b : Fin 2) : Fin 32 := ⟨2 * t.val + b.val, by
  have h1 := t.isLt; have h2 : cfg0.N = 16 := N_0; have h3 := b.isLt; omega⟩

/-- Point `t`'s input block is the two images 2t, 2t + 1, channels last. -/
theorem iblk0_apply (c : Dev nD) (t : Fin cfg0.N) (b : Fin 2) (r s : Fin 56) (ch : Fin 128) :
    (iblk m c 0 t : Vec Ideal S2x56x56x128 .bf16) (ix4 b r s ch)
      = (m ((c : Thread nD τ).loc main_arg0) : S32x128x56x56.Idx → Elt Ideal .f32) (ix4 (img t b) ch r s) := by
  obtain ⟨h0, h1, h2, h3⟩ := idx0 t
  rw [← V_main_v1_apply m c (img t b) r s ch]
  unfold iblk
  rw [View.read_apply]
  show V m c main_v1 _ = V m c main_v1 _
  congr 1
  funext a
  apply Fin.ext
  match a with
  | ⟨0, _⟩ => show win0_0.index t 0 * 2 + 1 * b.val = 2 * t.val + b.val; rw [h0]; omega
  | ⟨1, _⟩ => show win0_0.index t 1 * 56 + 1 * r.val = r.val; rw [h1]; omega
  | ⟨2, _⟩ => show win0_0.index t 2 * 56 + 1 * s.val = s.val; rw [h2]; omega
  | ⟨3, _⟩ => show win0_0.index t 3 * 128 + 1 * ch.val = ch.val; rw [h3]; omega

/-- Every point's filter block is the whole filter bank. -/
theorem iblk1_apply (c : Dev nD) (t : Fin cfg0.N) (p : Fin 3) (k : Fin 384) (o : Fin 256) :
    (iblk m c 1 t : Vec Ideal S3x384x256 .bf16) (ix3 p k o)
      = (m ((c : Thread nD τ).loc main_arg1) : S256x128x3x3.Idx → Elt Ideal .f32) (ix4 o (chan k) p (tcol k)) := by
  obtain ⟨h0, h1, h2⟩ := idx1 t
  rw [← V_main_v4_apply m c p k o]
  unfold iblk
  rw [View.read_apply]
  show V m c main_v4 _ = V m c main_v4 _
  congr 1
  funext a
  apply Fin.ext
  match a with
  | ⟨0, _⟩ => show win0_1.index t 0 * 3 + 1 * p.val = p.val; rw [h0]; omega
  | ⟨1, _⟩ => show win0_1.index t 1 * 384 + 1 * k.val = k.val; rw [h1]; omega
  | ⟨2, _⟩ => show win0_1.index t 2 * 256 + 1 * o.val = o.val; rw [h2]; omega

/-- Every point's bias block is the whole bias. -/
theorem iblk2_apply (c : Dev nD) (t : Fin cfg0.N) (o : Fin 256) :
    (iblk m c 2 t : Vec Ideal S256 .f32) (ix1 o)
      = (m ((c : Thread nD τ).loc main_arg2) : S256.Idx → Elt Ideal .f32) (ix1 o) := by
  have h0 := idx2 t
  unfold iblk
  rw [View.read_apply]
  show V m c main_arg2 _ = _
  rw [V_main_arg2]
  congr 1
  funext a
  apply Fin.ext
  match a with
  | ⟨0, _⟩ => show win0_2.index t 0 * 256 + 1 * o.val = o.val; rw [h0]; omega

/-- The padded block of point `t` is the padded input at the block's images. -/
theorem padBlk_iblk (c : Dev nD) (t : Fin cfg0.N) (b : Fin 2) (r s : ℕ) (ch : Fin 128) :
    padBlk (iblk m c 0 t) b r s ch
      = padAt (m ((c : Thread nD τ).loc main_arg0) : S32x128x56x56.Idx → Elt Ideal .f32) (img t b) ch r s := by
  unfold padBlk padAt
  by_cases hc : 1 ≤ r ∧ r ≤ 56 ∧ 1 ≤ s ∧ s ≤ 56
  · rw [dif_pos hc, dif_pos hc]
    exact iblk0_apply m c t b _ _ ch
  · rw [dif_neg hc, dif_neg hc]

/-! ## What a point writes back, and the result array -/

/-- The convolution of the three argument arrays, laid out [32, 256, 3136]: the pixel (h, v) at position h · 56 + v. -/
def flat (c : Dev nD) : S32x256x3136.Idx → Elt Ideal .f32 := fun i =>
  conv (m ((c : Thread nD τ).loc main_arg0)) (m ((c : Thread nD τ).loc main_arg1)) (m ((c : Thread nD τ).loc main_arg2))
    (ix4 (i 0) (i 1) ⟨(i 2).val / 56, by have h : (i 2).val < 3136 := (i 2).isLt; show (i 2).val / 56 < 56; omega⟩ ⟨(i 2).val % 56, Nat.mod_lt _ (by norm_num)⟩)

/-- The output block of point `t` at (b, o, l) is the convolution at image 2t + b, channel o, pixel l. -/
theorem block_value (c : Dev nD) (t : Fin cfg0.N) (b : Fin 2) (o : Fin 256) (l : Fin 3136) :
    outBlock (F := Ideal) (iblk m c 0 t) (iblk m c 1 t) (iblk m c 2 t) (ix3 b o l)
      = conv (m ((c : Thread nD τ).loc main_arg0)) (m ((c : Thread nD τ).loc main_arg1)) (m ((c : Thread nD τ).loc main_arg2))
          (ix4 (img t b) o ⟨l.val / 56, by have := l.isLt; omega⟩ ⟨l.val % 56, Nat.mod_lt _ (by norm_num)⟩) := by
  rw [outBlock_apply (iblk m c 0 t) (iblk m c 1 t) (iblk m c 2 t) b o ⟨l.val / 56, by have := l.isLt; omega⟩
    ⟨l.val % 56, Nat.mod_lt _ (by norm_num)⟩ l (by show l.val = l.val / 56 * 56 + l.val % 56; omega), conv_eq_taps]
  congr 1
  · congr 1
    · congr 1
      · congr 1
        unfold tap
        refine Finset.sum_congr rfl fun k _ => ?_
        rw [padBlk_iblk, iblk1_apply]; rfl
      · unfold tap
        refine Finset.sum_congr rfl fun k _ => ?_
        rw [padBlk_iblk, iblk1_apply]; rfl
    · unfold tap
      refine Finset.sum_congr rfl fun k _ => ?_
      rw [padBlk_iblk, iblk1_apply]; rfl
  · exact iblk2_apply m c t o

/-- What point `t` writes back is block `t` of the flat convolution. -/
theorem flushed3_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  obtain ⟨h0, h1, h2⟩ := idx3 t
  funext j
  rw [View.read_apply]
  have hb : (j 0).val < 2 := (j 0).isLt
  have ho : (j 1).val < 256 := (j 1).isLt
  have hl : (j 2).val < 3136 := (j 2).isLt
  have ej : (j : S2x256x3136.Idx) = ix3 (⟨(j 0).val, hb⟩ : Fin 2) (⟨(j 1).val, ho⟩ : Fin 256) (⟨(j 2).val, hl⟩ : Fin 3136) := by
    funext a
    match a with
    | ⟨0, _⟩ => rfl
    | ⟨1, _⟩ => rfl
    | ⟨2, _⟩ => rfl
  show outBlock (F := Ideal) (iblk m c 0 t) (iblk m c 1 t) (iblk m c 2 t) (j : S2x256x3136.Idx) = flat m c (((cfg0.win 3).blk t).view.emb j)
  refine (congrArg (outBlock (F := Ideal) (iblk m c 0 t) (iblk m c 1 t) (iblk m c 2 t)) ej).trans ?_
  rw [block_value]
  unfold flat
  congr 1
  funext a
  apply Fin.ext
  match a with
  | ⟨0, _⟩ => show 2 * t.val + (j 0).val = win0_3.index t 0 * 2 + 1 * (j 0).val; rw [h0]; omega
  | ⟨1, _⟩ => show (j 1).val = win0_3.index t 1 * 256 + 1 * (j 1).val; rw [h1]; omega
  | ⟨2, _⟩ => show (j 2).val / 56 = (win0_3.index t 2 * 3136 + 1 * (j 2).val) / 56; rw [h2]; simp
  | ⟨3, _⟩ => show (j 2).val % 56 = (win0_3.index t 2 * 3136 + 1 * (j 2).val) % 56; rw [h2]; simp

/-- An index of the result array is in point `t`'s block iff each coordinate is in the block's range on its axis. -/
theorem mem_blk3 (t : Fin cfg0.N) (i : S32x256x3136.Idx) :
    i ∈ ((cfg0.win 3).blk t).view.set ↔ ∀ a : Fin 3, win0_3.index t a * S2x256x3136.size a ≤ (i a).val ∧ (i a).val < win0_3.index t a * S2x256x3136.size a + S2x256x3136.size a := by
  show i ∈ ((View.whole main_v5).slice (win0_3.rect t)).set ↔ _
  rw [View.set_slice_whole, Rect.mem_set_unit]
  exact Iff.rfl

/-- The sixteen blocks of two images fill the result array, so it ends at the flat convolution. -/
theorem final3 (c : Dev nD) : (dats m 0 c).arrAt 3 cfg0.N = flat m c :=
  (dats m 0 c).arrAt_eq_of_cover 3 (flat m c) (fun t _ => flushed3_eq m c t) fun i => by
    have hN : cfg0.N = 16 := N_0
    have hi0 : (i 0).val < 32 := (i 0).isLt
    have hi1 : (i 1).val < 256 := (i 1).isLt
    have hi2 : (i 2).val < 3136 := (i 2).isLt
    refine ⟨⟨(i 0).val / 2, by omega⟩, flush0_3 _, ?_⟩
    obtain ⟨h0, h1, h2⟩ := idx3 ⟨(i 0).val / 2, by omega⟩
    rw [mem_blk3]
    intro a
    match a with
    | ⟨0, _⟩ => show win0_3.index _ 0 * 2 ≤ (i 0).val ∧ (i 0).val < win0_3.index _ 0 * 2 + 2; rw [h0]; show (i 0).val / 2 * 2 ≤ (i 0).val ∧ (i 0).val < (i 0).val / 2 * 2 + 2; omega
    | ⟨1, _⟩ => show win0_3.index _ 1 * 256 ≤ (i 1).val ∧ (i 1).val < win0_3.index _ 1 * 256 + 256; rw [h1]; omega
    | ⟨2, _⟩ => show win0_3.index _ 2 * 3136 ≤ (i 2).val ∧ (i 2).val < win0_3.index _ 2 * 3136 + 3136; rw [h2]; omega

/-! ## The host line after the region and the run -/

/-- The flat convolution cast to [32, 256, 56, 56] is the convolution. -/
theorem unflatten (c : Dev nD) :
    shapeCast S32x256x56x56 (flat m c) shapeCasts_S32x256x3136_S32x256x56x56
      = conv (m ((c : Thread nD τ).loc main_arg0)) (m ((c : Thread nD τ).loc main_arg1)) (m ((c : Thread nD τ).loc main_arg2)) := by
  funext i
  have h2 : (i 2).val < 56 := (i 2).isLt
  have h3 : (i 3).val < 56 := (i 3).isLt
  refine (shapeCast_apply _ _ i (ix3 (i 0) (i 1) ⟨(i 2).val * 56 + (i 3).val, by omega⟩) ?_).trans ?_
  · rw [Shape.rowMajor_val_three, Shape.rowMajor_val_four]
    show ((i 0).val * 256 + (i 1).val) * 3136 + ((i 2).val * 56 + (i 3).val) = (((i 0).val * 256 + (i 1).val) * 56 + (i 2).val) * 56 + (i 3).val
    ring
  · unfold flat
    congr 1
    funext a
    apply Fin.ext
    match a with
    | ⟨0, _⟩ => rfl
    | ⟨1, _⟩ => rfl
    | ⟨2, _⟩ => show ((i 2).val * 56 + (i 3).val) / 56 = (i 2).val; omega
    | ⟨3, _⟩ => show ((i 2).val * 56 + (i 3).val) % 56 = (i 3).val; omega

/-- The result buffer after the host line that follows the region: the convolution. -/
theorem tail_v6 (c : Dev nD) :
    Pipeline.afterTail₀ cfgs (dats m) 0 (V0 m) [hostOps1] c main_v6
      = conv (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  rw [(Pipeline.withArrays_arr spec0 launch0.win.arr_inj c _ _ 3).trans (final3 m c)]
  exact unflatten m c

/-- The run, read: the result at the convolution of the arguments, the arguments unchanged. -/
theorem run : θ_run defs (onTc (τ := τ) (main (F := Ideal))) ⟨m, fun _ => 0, ρ⟩ fun r => ∀ c : Dev nD,
      r.2.mem ((c.tc : Thread nD τ).loc main_v6)
        = conv (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans ((((dats m) 0 c).arrAt_in 2 rfl _).trans ((A_eq m c 2).trans (V_main_arg2 m c)))⟩)
    (run_main m ρ)

end Cert.KernelIdeal.Final

end
-- ==== Proof.LibBlocks3.lean ====
/-
  Sums over a range cut twice: into blocks, and each block into rows.

  A range of A * B * C entries is A blocks of B rows of C entries; entry c of row b of block a is entry
  (a * B + b) * C + c of the range, and a sum over the range is the sum over the blocks of the sums over each block's
  rows of each row's sum.
-/
import proofs.«166849_j29085518529124_2_alg».proof.Proof.LibBlocks

open Finset

namespace Cert.LibBlocks3

/-- Entry `c` of row `b` of block `a`, when a range of `A * B * C` entries is cut into `A` blocks of `B` rows of `C`. -/
def entry3 {A B C : ℕ} (a : Fin A) (b : Fin B) (c : Fin C) : Fin (A * B * C) :=
  Cert.LibBlocks.entry (Cert.LibBlocks.entry a b) c

/-- Its position in the range. -/
theorem entry3_val {A B C : ℕ} (a : Fin A) (b : Fin B) (c : Fin C) :
    (entry3 a b c).val = (a.val * B + b.val) * C + c.val := rfl

/-- A sum over `A * B * C` entries is the sum over the blocks, of the sums over a block's rows, of each row's sum. -/
theorem sum_entries3 {M : Type*} [AddCommMonoid M] {A B C : ℕ} (g : Fin (A * B * C) → M) :
    ∑ k, g k = ∑ a : Fin A, ∑ b : Fin B, ∑ c : Fin C, g (entry3 a b c) := by
  rw [Cert.LibBlocks.sum_entries (A := A * B) (B := C) g,
    Cert.LibBlocks.sum_entries (A := A) (B := B) (fun ab => ∑ c : Fin C, g (Cert.LibBlocks.entry ab c))]
  rfl

end Cert.LibBlocks3
-- ==== Proof.RefValue.lean ====
/-
  The reference program's result, at the ideal instance, is the 3 × 3 convolution of the specification.

  The reference pads the input with one ring of zeros, takes the nine 56 × 56 windows of the padded planes at row and
  column offsets 0, 1, 2, stacks them on a new axis, flattens (channel, window) to one axis of length 1152 and the plane
  to one axis of length 3136, multiplies by the filter bank flattened to [256, 1152], and adds the bias. Read at an
  output index (b, o, h, v), the product is a sum over k = 9 c + 3 p + q of filter entry (o, c, p, q) times the padded
  input at (b, c, h + p, v + q): the specification's triple sum.
-/
import proofs.«166849_j29085518529124_2_alg».proof.Proof.Gen.ReferenceIdeal.Read
import proofs.«166849_j29085518529124_2_alg».proof.Proof.Spec
import proofs.«166849_j29085518529124_2_alg».proof.Proof.LibBlocks3
import Idealize.ShloMosaic.Lib.KernelVsHost

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.ConvSpec

/-- The padding value is the integer zero converted to a float: the extended real zero. -/
theorem pad_value (i : S_.Idx) : val_main_call0_v0 (F := Ideal) i = (0 : EReal) := by
  rw [val_main_call0_v0_apply, val_main_c_apply]
  show (((0#32 : BitVec 32).toInt : ℝ) : EReal) = 0
  simp

/-- The padded input read at a row and a column of the 58 × 58 plane is the specification's padded input. -/
theorem pad_apply (x0 : (⟨S32x128x56x56, .f32⟩ : BufTy).Contents (Elt Ideal)) (b : Fin 32) (c : Fin 128) (r s : Fin 58) :
    val_main_v0 (F := Ideal) x0 (ix4 b c r s) = padAt x0 b c r.val s.val := by
  unfold val_main_v0 padAt
  by_cases hin : 1 ≤ r.val ∧ r.val ≤ 56 ∧ 1 ≤ s.val ∧ s.val ≤ 56
  · rw [dif_pos hin]
    refine pad_apply_of_inside _ _ _ x0 _ _ _ (ix4 b c r s) (ix4 b c ⟨r.val - 1, by omega⟩ ⟨s.val - 1, by omega⟩) ?_
    intro a
    match a with
    | ⟨0, _⟩ => show b.val = 0 + b.val * (0 + 1); omega
    | ⟨1, _⟩ => show c.val = 0 + c.val * (0 + 1); omega
    | ⟨2, _⟩ => show r.val = 1 + (r.val - 1) * (0 + 1); omega
    | ⟨3, _⟩ => show s.val = 1 + (s.val - 1) * (0 + 1); omega
  · rw [dif_neg hin]
    by_cases hr : 1 ≤ r.val ∧ r.val ≤ 56
    · have hs : ¬(1 ≤ s.val ∧ s.val ≤ 56) := fun h => hin ⟨hr.1, hr.2, h.1, h.2⟩
      refine (pad_apply_of_not_inside _ _ _ x0 _ _ _ (ix4 b c r s) (3 : Fin 4) ?_).trans (pad_value _)
      show ¬(1 ≤ s.val ∧ (s.val - 1) % (0 + 1) = 0 ∧ (s.val - 1) / (0 + 1) < 56)
      omega
    · refine (pad_apply_of_not_inside _ _ _ x0 _ _ _ (ix4 b c r s) (2 : Fin 4) ?_).trans (pad_value _)
      show ¬(1 ≤ r.val ∧ (r.val - 1) % (0 + 1) = 0 ∧ (r.val - 1) / (0 + 1) < 56)
      omega

/-- A 56 × 56 window of the padded input at row offset `p` and column offset `q`, with a unit axis inserted at position 2,
    read at (b, c, 0, h, v): the padded input at row h + p and column v + q. -/
theorem window_apply (x0 : (⟨S32x128x56x56, .f32⟩ : BufTy).Contents (Elt Ideal)) (p q : Nat)
    (hs : S32x128x58x58.Slices ![0, 0, p, q] S32x128x56x56) (b : Fin 32) (c : Fin 128) (h v : Fin 56) :
    broadcastInDim S32x128x1x56x56 ![0, 1, 3, 4] bcast_S32x128x56x56_S32x128x1x56x56_0_1_3_4
        (extractStridedSlice S32x128x56x56 ![0, 0, p, q] (val_main_v0 (F := Ideal) x0) hs) (ix5 b c 0 h v)
      = padAt x0 b c (h.val + p) (v.val + q) := by
  have hp : p + 56 ≤ 58 := hs.2 2
  have hq : q + 56 ≤ 58 := hs.2 3
  have hh := h.isLt
  have hv := v.isLt
  refine (broadcastInDim_apply _ _ _ (ix5 b c 0 h v) (ix4 b c h v) ?_).trans ?_
  · intro a
    match a with
    | ⟨0, _⟩ => show b.val = if (32 : Nat) = 1 then 0 else b.val; rw [if_neg (by decide)]
    | ⟨1, _⟩ => show c.val = if (128 : Nat) = 1 then 0 else c.val; rw [if_neg (by decide)]
    | ⟨2, _⟩ => show h.val = if (56 : Nat) = 1 then 0 else h.val; rw [if_neg (by decide)]
    | ⟨3, _⟩ => show v.val = if (56 : Nat) = 1 then 0 else v.val; rw [if_neg (by decide)]
  · refine (extractStridedSlice_apply _ _ hs (ix4 b c h v)
      (ix4 b c ⟨h.val + p, by omega⟩ ⟨v.val + q, by omega⟩) ?_).trans (pad_apply x0 b c _ _)
    intro a
    match a with
    | ⟨0, _⟩ => show b.val = 0 + b.val; omega
    | ⟨1, _⟩ => show c.val = 0 + c.val; omega
    | ⟨2, _⟩ => show h.val + p = p + h.val; omega
    | ⟨3, _⟩ => show v.val + q = q + v.val; omega

/-- Off the stacking axis, an index of a piece and the index of the stack have the same coordinates. -/
theorem off_axis (b : Fin 32) (c : Fin 128) (t : Fin 9) (h v : Fin 56)
    (a : Fin S32x128x1x56x56.rank) (ha : a.cast (rfl : S32x128x1x56x56.rank = S32x128x9x56x56.rank) ≠ 2) :
    ((ix5 b c (0 : Fin 1) h v) a).val
      = ((ix5 b c t h v) (a.cast (rfl : S32x128x1x56x56.rank = S32x128x9x56x56.rank))).val := by
  match a with
  | ⟨0, _⟩ => rfl
  | ⟨1, _⟩ => rfl
  | ⟨2, _⟩ => exact absurd rfl ha
  | ⟨3, _⟩ => rfl
  | ⟨4, _⟩ => rfl

/-- The stack of the nine windows, read at (b, c, 3p + q, h, v), is window (p, q) at (b, c, 0, h, v): the padded input at
    row h + p and column v + q. -/
theorem stack_apply (x0 : (⟨S32x128x56x56, .f32⟩ : BufTy).Contents (Elt Ideal)) (b : Fin 32) (c : Fin 128) (p q : Fin 3)
    (h v : Fin 56) :
    val_main_v19 (F := Ideal) x0 (ix5 b c ⟨p.val * 3 + q.val, by have := p.isLt; have := q.isLt; omega⟩ h v)
      = padAt x0 b c (h.val + p.val) (v.val + q.val) := by
  unfold val_main_v19
  match p, q with
  | ⟨0, _⟩, ⟨0, _⟩ =>
    exact (concatenate_apply_piece (2 : Fin S32x128x9x56x56.rank) _ _ _ 0 (by show (0 : Nat) < 9; decide) S32x128x1x56x56 _ rfl rfl 0 rfl
      (ix5 b c 0 h v) (off_axis b c _ h v) rfl).trans (window_apply x0 0 0 _ b c h v)
  | ⟨0, _⟩, ⟨1, _⟩ =>
    exact (concatenate_apply_piece (2 : Fin S32x128x9x56x56.rank) _ _ _ 1 (by show (1 : Nat) < 9; decide) S32x128x1x56x56 _ rfl rfl 1 rfl
      (ix5 b c 0 h v) (off_axis b c _ h v) rfl).trans (window_apply x0 0 1 _ b c h v)
  | ⟨0, _⟩, ⟨2, _⟩ =>
    exact (concatenate_apply_piece (2 : Fin S32x128x9x56x56.rank) _ _ _ 2 (by show (2 : Nat) < 9; decide) S32x128x1x56x56 _ rfl rfl 2 rfl
      (ix5 b c 0 h v) (off_axis b c _ h v) rfl).trans (window_apply x0 0 2 _ b c h v)
  | ⟨1, _⟩, ⟨0, _⟩ =>
    exact (concatenate_apply_piece (2 : Fin S32x128x9x56x56.rank) _ _ _ 3 (by show (3 : Nat) < 9; decide) S32x128x1x56x56 _ rfl rfl 3 rfl
      (ix5 b c 0 h v) (off_axis b c _ h v) rfl).trans (window_apply x0 1 0 _ b c h v)
  | ⟨1, _⟩, ⟨1, _⟩ =>
    exact (concatenate_apply_piece (2 : Fin S32x128x9x56x56.rank) _ _ _ 4 (by show (4 : Nat) < 9; decide) S32x128x1x56x56 _ rfl rfl 4 rfl
      (ix5 b c 0 h v) (off_axis b c _ h v) rfl).trans (window_apply x0 1 1 _ b c h v)
  | ⟨1, _⟩, ⟨2, _⟩ =>
    exact (concatenate_apply_piece (2 : Fin S32x128x9x56x56.rank) _ _ _ 5 (by show (5 : Nat) < 9; decide) S32x128x1x56x56 _ rfl rfl 5 rfl
      (ix5 b c 0 h v) (off_axis b c _ h v) rfl).trans (window_apply x0 1 2 _ b c h v)
  | ⟨2, _⟩, ⟨0, _⟩ =>
    exact (concatenate_apply_piece (2 : Fin S32x128x9x56x56.rank) _ _ _ 6 (by show (6 : Nat) < 9; decide) S32x128x1x56x56 _ rfl rfl 6 rfl
      (ix5 b c 0 h v) (off_axis b c _ h v) rfl).trans (window_apply x0 2 0 _ b c h v)
  | ⟨2, _⟩, ⟨1, _⟩ =>
    exact (concatenate_apply_piece (2 : Fin S32x128x9x56x56.rank) _ _ _ 7 (by show (7 : Nat) < 9; decide) S32x128x1x56x56 _ rfl rfl 7 rfl
      (ix5 b c 0 h v) (off_axis b c _ h v) rfl).trans (window_apply x0 2 1 _ b c h v)
  | ⟨2, _⟩, ⟨2, _⟩ =>
    exact (concatenate_apply_piece (2 : Fin S32x128x9x56x56.rank) _ _ _ 8 (by show (8 : Nat) < 9; decide) S32x128x1x56x56 _ rfl rfl 8 rfl
      (ix5 b c 0 h v) (off_axis b c _ h v) rfl).trans (window_apply x0 2 2 _ b c h v)

/-- Position `c · 9 + p · 3 + q` on the contracted axis: channel `c`, tap row `p`, tap column `q`. -/
def tap (c : Fin 128) (p q : Fin 3) : Fin 1152 :=
  ⟨(c.val * 3 + p.val) * 3 + q.val, by have := c.isLt; have := p.isLt; have := q.isLt; omega⟩

/-- A sum over the contracted axis is the sum over the channels, the tap rows and the tap columns. -/
theorem sum_taps (g : Fin 1152 → EReal) :
    ∑ k, g k = ∑ c : Fin 128, ∑ p : Fin 3, ∑ q : Fin 3, g (tap c p q) :=
  (Cert.LibBlocks3.sum_entries3 (A := 128) (B := 3) (C := 3) g).trans
    (Finset.sum_congr rfl fun c _ => Finset.sum_congr rfl fun p _ => Finset.sum_congr rfl fun q _ =>
      congrArg g (Fin.ext rfl))

/-- The output index (b, o, h, v) in the product's layout [256, 32, 3136]: (o, b, 56 h + v). -/
theorem out_idx (b : Fin 32) (o : Fin 256) (h v : Fin 56) :
    idx_main_v24 (idx_main_v25 (ix4 b o h v))
      = ix3 o b ⟨h.val * 56 + v.val, by have := h.isLt; have := v.isLt; omega⟩ :=
  funext fun a => Fin.ext (by
    have := b.isLt; have := o.isLt; have := h.isLt; have := v.isLt
    match a with
    | ⟨0, _⟩ => show (((b.val * 256 + o.val) * 56 + h.val) * 56 + v.val) / 3136 % 256 = o.val; omega
    | ⟨1, _⟩ => show (((b.val * 256 + o.val) * 56 + h.val) * 56 + v.val) / 802816 = b.val; omega
    | ⟨2, _⟩ => show (((b.val * 256 + o.val) * 56 + h.val) * 56 + v.val) % 3136 = h.val * 56 + v.val; omega)

/-- The bias is read at the output channel. -/
theorem bias_idx (b : Fin 32) (o : Fin 256) (h v : Fin 56) :
    idx_main_v26 (idx_main_v27 (ix4 b o h v)) = ix1 o :=
  funext fun a => Fin.ext (by
    match a with
    | ⟨0, _⟩ => show ((0 * 256 + o.val) * 1 + 0) * 1 + 0 = o.val; omega)

/-- Row `o` of the flattened filter bank at position `tap c p q` is the filter entry (o, c, p, q). -/
theorem weight_idx (o : Fin 256) (b : Fin 32) (n : Fin 3136) (c : Fin 128) (p q : Fin 3) :
    idx_main_v22 (lidx_main_v23 (ix3 o b n) (tap c p q)) = ix4 o c p q :=
  funext fun a => Fin.ext (by
    have := o.isLt; have := c.isLt; have := p.isLt; have := q.isLt
    match a with
    | ⟨0, _⟩ => show (o.val * 1152 + ((c.val * 3 + p.val) * 3 + q.val)) / 1152 = o.val; omega
    | ⟨1, _⟩ => show (o.val * 1152 + ((c.val * 3 + p.val) * 3 + q.val)) / 9 % 128 = c.val; omega
    | ⟨2, _⟩ => show (o.val * 1152 + ((c.val * 3 + p.val) * 3 + q.val)) / 3 % 3 = p.val; omega
    | ⟨3, _⟩ => show (o.val * 1152 + ((c.val * 3 + p.val) * 3 + q.val)) % 3 = q.val; omega)

/-- The flattened, transposed stack at (b, 56 h + v, tap c p q) is the stack at (b, c, 3 p + q, h, v). -/
theorem input_idx (o : Fin 256) (b : Fin 32) (h v : Fin 56) (c : Fin 128) (p q : Fin 3) :
    idx_main_v20 (idx_main_v21 (ridx_main_v23
        (ix3 o b ⟨h.val * 56 + v.val, by have := h.isLt; have := v.isLt; omega⟩) (tap c p q)))
      = ix5 b c ⟨p.val * 3 + q.val, by have := p.isLt; have := q.isLt; omega⟩ h v :=
  funext fun a => Fin.ext (by
    have := b.isLt; have := h.isLt; have := v.isLt; have := c.isLt; have := p.isLt; have := q.isLt
    match a with
    | ⟨0, _⟩ =>
      show ((b.val * 1152 + ((c.val * 3 + p.val) * 3 + q.val)) * 3136 + (h.val * 56 + v.val)) / 3612672 = b.val; omega
    | ⟨1, _⟩ =>
      show ((b.val * 1152 + ((c.val * 3 + p.val) * 3 + q.val)) * 3136 + (h.val * 56 + v.val)) / 28224 % 128 = c.val; omega
    | ⟨2, _⟩ =>
      show ((b.val * 1152 + ((c.val * 3 + p.val) * 3 + q.val)) * 3136 + (h.val * 56 + v.val)) / 3136 % 9
        = p.val * 3 + q.val; omega
    | ⟨3, _⟩ =>
      show ((b.val * 1152 + ((c.val * 3 + p.val) * 3 + q.val)) * 3136 + (h.val * 56 + v.val)) / 56 % 56 = h.val; omega
    | ⟨4, _⟩ =>
      show ((b.val * 1152 + ((c.val * 3 + p.val) * 3 + q.val)) * 3136 + (h.val * 56 + v.val)) % 56 = v.val; omega)

/-- **The reference's result is the convolution.** At (b, o, h, v) it is the product of row `o` of the flattened filter bank
    with column (b, 56 h + v) of the flattened stack of windows, plus the bias; the contracted axis splits into channel,
    tap row and tap column, and each factor is read back through the layout operations. -/
theorem ref_is_conv (x0 : (⟨S32x128x56x56, .f32⟩ : BufTy).Contents (Elt Ideal))
    (x1 : (⟨S256x128x3x3, .f32⟩ : BufTy).Contents (Elt Ideal)) (x2 : (⟨S256, .f32⟩ : BufTy).Contents (Elt Ideal)) :
    val_main_v28 (F := Ideal) x0 x1 x2 = conv x0 x1 x2 := by
  funext i
  obtain ⟨b, o, h, v, rfl⟩ : ∃ (b : Fin 32) (o : Fin 256) (h v : Fin 56), i = ix4 b o h v :=
    ⟨i 0, i 1, i 2, i 3, eq_ix4 i⟩
  rw [conv_apply, val_main_v28_apply, val_main_v25_apply, val_main_v24_apply, val_main_v23_apply, val_main_v27_apply,
    val_main_v26_apply, out_idx, bias_idx, sum_taps]
  refine congrArg (· + x2 (ix1 o)) ?_
  refine Finset.sum_congr rfl fun c _ => Finset.sum_congr rfl fun p _ => Finset.sum_congr rfl fun q _ => ?_
  rw [val_main_v22_apply, weight_idx, val_main_v21_apply, val_main_v20_apply, input_idx, stack_apply]

/-- **The reference's run.** Every weakly fair execution of the reference terminates with its result array holding the
    convolution of the argument arrays' launch contents, the argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = conv (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v28_eq m c).trans (ref_is_conv _ _ _)), (h c).2⟩)
    (Cert.ReferenceIdeal.Value.run (F := Ideal) m ρ)

end Cert.ReferenceIdeal.RefValue

end
-- ==== Proof.lean ====
/-
  The certificate of a 3 × 3 convolution kernel against its unfold-and-multiply reference.

  The kernel lays the input out channels last, pads each block of two images with a ring of zeros in a scratch buffer,
  and for each of the three tap rows multiplies the [6272, 384] matrix of the row's three column-shifted windows with
  that row's [384, 256] filter matrix, accumulating the three products; it adds the bias and writes the block back
  transposed, and a final cast gives the [32, 256, 56, 56] result.  The reference pads the input, stacks its nine shifted
  windows, flattens (channel, tap) to one axis of 1152 and multiplies with the filter bank flattened likewise, then adds
  the bias.  On the extended reals both are the same triple sum over channel, tap row and tap column plus the bias
  (`Cert.ConvSpec.conv`): the two programs group and order the 1152 terms differently, which addition's commutativity
  and associativity absorb, and the zeros of the padding ring contribute `0 · w = 0` on both sides; changes of float
  format are the identity.  No finiteness of the inputs is used.

  The frames: each kernel program's body runs on whole staging and scratch buffers, every scratch value it reads it has
  written at the same grid point, and the pipeline writes back only the output window, so the argument arrays end as
  launched; the reference is a straight line of host operations.  The kernel's idealization rewrote nothing, so
  `preserves` is trivial.
-/
import proofs.«166849_j29085518529124_2_alg».proof.Defs
import proofs.«166849_j29085518529124_2_alg».proof.Proof.Gen.Kernel
import proofs.«166849_j29085518529124_2_alg».proof.Proof.Gen.KernelIdeal
import proofs.«166849_j29085518529124_2_alg».proof.Proof.Gen.ReferenceIdeal
import proofs.«166849_j29085518529124_2_alg».proof.Proof.Gen.ReferenceIdeal.Run
import proofs.«166849_j29085518529124_2_alg».proof.Proof.Gen.ReferenceIdeal.Read
import proofs.«166849_j29085518529124_2_alg».proof.Proof.Gen.Pre_finite_inputs
import proofs.«166849_j29085518529124_2_alg».proof.Proof.KBody
import proofs.«166849_j29085518529124_2_alg».proof.Proof.KBodyIdeal
import proofs.«166849_j29085518529124_2_alg».proof.Proof.KFinal
import proofs.«166849_j29085518529124_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- And the reference: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The idealization rewrote no operation of the kernel. -/
theorem preserves : Cert.preserves_Kernel_KernelIdeal := trivial

/-- Both idealized programs end with their result at the convolution of the argument arrays, which agree. -/
theorem algebraic : Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
